-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S4000x512 : Shape := ⟨2, ![4000, 512]⟩
abbrev S4000x1 : Shape := ⟨2, ![4000, 1]⟩
abbrev S4000x16 : Shape := ⟨2, ![4000, 16]⟩
abbrev S3200000x16 : Shape := ⟨2, ![3200000, 16]⟩
abbrev S1x16 : Shape := ⟨2, ![1, 16]⟩
abbrev S100000x64 : Shape := ⟨2, ![100000, 64]⟩
abbrev S4000x64 : Shape := ⟨2, ![4000, 64]⟩
abbrev S3200000x64 : Shape := ⟨2, ![3200000, 64]⟩
abbrev S1x64 : Shape := ⟨2, ![1, 64]⟩

abbrev nBuf : Space → Nat
  | .hbm => 62
  | .vmem => 26
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x16, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x16, .f32⟩
  | .hbm, ⟨41, _⟩ => ⟨S_, .f32⟩
  | .hbm, ⟨42, _⟩ => ⟨S100000x16, .f32⟩
  | .hbm, ⟨43, _⟩ => ⟨S3200000x1, .i32⟩
  | .hbm, ⟨44, _⟩ => ⟨S100000x16, .f32⟩
  | .hbm, ⟨45, _⟩ => ⟨S1x16, .f32⟩
  | .hbm, ⟨46, _⟩ => ⟨S100000x64, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x64, .f32⟩
  | .hbm, ⟨56, _⟩ => ⟨S_, .f32⟩
  | .hbm, ⟨57, _⟩ => ⟨S100000x64, .f32⟩
  | .hbm, ⟨58, _⟩ => ⟨S3200000x1, .i32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x1, .f32⟩
  | .local _ .vmem, ⟨12, _⟩ => ⟨S4000x1, .f32⟩
  | .local _ .vmem, ⟨13, _⟩ => ⟨S1x16, .f32⟩
  | .local _ .vmem, ⟨14, _⟩ => ⟨S16x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x1, .f32⟩
  | .local _ .vmem, ⟨22, _⟩ => ⟨S4000x1, .f32⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x64_S16x64_0_0 : ∀ a, (![0, 0] : Fin 2 → Nat) a + S16x64.size a ≤ S16x64.size a
  h_S16x64 : 0 < S16x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S3200000x1_S3200000_n_0_0_1_wf : ScatterDims.WF S100000 S3200000x1 S3200000 [] [0] [0] 1
  dot_S4000x512_S512x16_S4000x16_1_0_0_1_n_n_wf : DotDims.WF S4000x512 S512x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S4000x16_S16x64_S4000x64_1_0_0_1_n_n_wf : DotDims.WF S4000x16 S16x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .f32 = 32 ∨ (Rect.block (s := S100000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S100000x16.size a
  hwx1_1 : ∀ i : grid1.Coords, EltTy.bits .f32 = 32 ∨ (Rect.block (s := S100000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KHost.lean ====
/-
  The host side of the idealized kernel, stretch by stretch.

  Between its three regions the kernel's @main runs plain array operations: it cuts the edge list into its source row and its
  target row, counts each node's incoming edges by an accumulating scatter of ones (plus one for the node's self-loop),
  turns the degree into the normalisation factor 1/sqrt(deg), and, around each region, gathers the scaled features of every
  edge's source and sums them into the edge's target. Each stretch is read here over an ARBITRARY valuation of the
  buffers: what a buffer the stretch writes holds afterwards, as a pure function of the buffers it reads, and that a
  buffer it does not write is kept.
-/
import proofs.«171371_j15762529976715_2_alg».proof.Proof.Gen.KernelIdeal.Frame
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-! ## The pure functions -/

/-- The edges' source nodes: row 0 of the edge list. -/
def rowK (ei : (⟨S2x3200000, .i32⟩ : BufTy).Contents (Elt F)) : (⟨S3200000, .i32⟩ : BufTy).Contents (Elt F) :=
  shapeCast S3200000 (extractStridedSlice S1x3200000 ![0, 0] ei slices_S2x3200000_S1x3200000_0_0) shapeCasts_S1x3200000_S3200000
/-- The edges' target nodes: row 1 of the edge list. -/
def colK (ei : (⟨S2x3200000, .i32⟩ : BufTy).Contents (Elt F)) : (⟨S3200000, .i32⟩ : BufTy).Contents (Elt F) :=
  shapeCast S3200000 (extractStridedSlice S1x3200000 ![1, 0] ei slices_S2x3200000_S1x3200000_1_0) shapeCasts_S1x3200000_S3200000

/-- The targets as scatter indices, one index vector of length one per edge. -/
def dstIdx (col : (⟨S3200000, .i32⟩ : BufTy).Contents (Elt F)) : (⟨S3200000x1, .i32⟩ : BufTy).Contents (Elt F) :=
  broadcastInDim S3200000x1 ![0] bcast_S3200000_S3200000x1_0 col
/-- The sources as gather indices: a negative index counts from the end (100000 is added to it). -/
def srcIdx (row : (⟨S3200000, .i32⟩ : BufTy).Contents (Elt F)) : (⟨S3200000x1, .i32⟩ : BufTy).Contents (Elt F) :=
  broadcastInDim S3200000x1 ![0] bcast_S3200000_S3200000x1_0
    (select (cmpi .slt row (broadcastInDim S3200000 ![] bcast_S_S3200000 (constantI S_ 32 0#32)))
      (addi row (broadcastInDim S3200000 ![] bcast_S_S3200000 (constantI S_ 32 100000#32))) row)

/-- A node's degree: the number of edges that target it, plus one. -/
def degK (col : (⟨S3200000, .i32⟩ : BufTy).Contents (Elt F)) : (⟨S100000, .f32⟩ : BufTy).Contents (Elt F) :=
  addf (Host.scatterAdd scatter_S100000_S3200000x1_S3200000_n_0_0_1
      (broadcastInDim S100000 ![] bcast_S_S100000 (constant (F := F) S_ .f32 0x00000000#32)) (dstIdx (F := F) col)
      (broadcastInDim S3200000 ![] bcast_S_S3200000 (constant (F := F) S_ .f32 0x3F800000#32)))
    (broadcastInDim S100000 ![] bcast_S_S100000 (constant (F := F) S_ .f32 0x3F800000#32))
/-- "the degree is positive". -/
def posK (col : (⟨S3200000, .i32⟩ : BufTy).Contents (Elt F)) : (⟨S100000, .i1⟩ : BufTy).Contents (Elt F) :=
  cmpf (F := F) .ogt (degK (F := F) col) (broadcastInDim S100000 ![] bcast_S_S100000 (constant (F := F) S_ .f32 0x00000000#32))
/-- 1/sqrt of the degree raised to at least one. -/
def rsK (col : (⟨S3200000, .i32⟩ : BufTy).Contents (Elt F)) : (⟨S100000, .f32⟩ : BufTy).Contents (Elt F) :=
  Host.rsqrt (maximumf (degK (F := F) col) (broadcastInDim S100000 ![] bcast_S_S100000 (constant (F := F) S_ .f32 0x3F800000#32)))
/-- The normalisation factor of each node, where the degree is positive, else zero. -/
def disK (pos : (⟨S100000, .i1⟩ : BufTy).Contents (Elt F)) (rs : (⟨S100000, .f32⟩ : BufTy).Contents (Elt F)) (z : (⟨S_, .f32⟩ : BufTy).Contents (Elt F)) : (⟨S100000, .f32⟩ : BufTy).Contents (Elt F) :=
  select pos rs (broadcastInDim S100000 ![] bcast_S_S100000 (id z))
/-- The same as a column. -/
def dis2d (dis : (⟨S100000, .f32⟩ : BufTy).Contents (Elt F)) : (⟨S100000x1, .f32⟩ : BufTy).Contents (Elt F) :=
  shapeCast S100000x1 dis shapeCasts_S100000_S100000x1

/-- Sixteen-wide features summed over incoming edges: row `target e` of the result gets row `source e` of `sh`. -/
def agg16 (row col : (⟨S3200000, .i32⟩ : BufTy).Contents (Elt F)) (sh : (⟨S100000x16, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant (F := F) S_ .f32 0x00000000#32)) (dstIdx (F := F) col)
    (Host.gather gather_S100000x16_S3200000x1_S3200000x16_1_0_n_n_0_1_116 sh (srcIdx (F := F) row))
/-- The same for sixty-four-wide features. -/
def agg64 (row col : (⟨S3200000, .i32⟩ : BufTy).Contents (Elt F)) (sh : (⟨S100000x64, .f32⟩ : BufTy).Contents (Elt F)) : (⟨S100000x64, .f32⟩ : BufTy).Contents (Elt F) :=
  Host.scatterAdd scatter_S100000x64_S3200000x1_S3200000x64_1_0_0_1
    (broadcastInDim S100000x64 ![] bcast_S_S100000x64 (constant (F := F) S_ .f32 0x00000000#32)) (dstIdx (F := F) col)
    (Host.gather gather_S100000x64_S3200000x1_S3200000x64_1_0_n_n_0_1_164 sh (srcIdx (F := F) row))

/-! ## A buffer a stretch does not write is kept -/

/-- `after ops U b = U b` for a literal list of operations none of which writes `b`: every operation's one result buffer is
    told apart from `b` as a reference. -/
macro "not_written" : tactic => `(tactic|
  (refine StableHlo.after_of_forall_not_mem _ _ (List.forall_iff_forall_mem.mp ?_)
   simp only [hostOps0, hostOps0_1, hostOps0_2, hostOps1, hostOps2, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

variable (U : Valuation τ sig (Elt F))

/-! ## The first stretch: the edge list cut, the degree, its positivity and its inverse square root -/

theorem h0_v1 : after hostOps0 U (Proc.devRef .tc main_v1) = rowK (F := F) (U (Proc.devRef .tc main_arg1)) := by
  after_results_simp <;> rfl
theorem h0_v3 : after hostOps0 U (Proc.devRef .tc main_v3) = colK (F := F) (U (Proc.devRef .tc main_arg1)) := by
  after_results_simp <;> rfl
theorem h0_v11 : after hostOps0 U (Proc.devRef .tc main_v11) = posK (F := F) (colK (F := F) (U (Proc.devRef .tc main_arg1))) := by
  after_results_simp <;> rfl
theorem h0_v14 : after hostOps0 U (Proc.devRef .tc main_v14) = rsK (F := F) (colK (F := F) (U (Proc.devRef .tc main_arg1))) := by
  after_results_simp <;> rfl
theorem h0_cst4 : after hostOps0 U (Proc.devRef .tc main_cst_4) = constant (F := F) S_ .f32 0x00000000#32 := by
  after_results_simp <;> rfl
theorem h0_arg0 : after hostOps0 U (Proc.devRef .tc main_arg0) = U (Proc.devRef .tc main_arg0) := by not_written
theorem h0_arg2 : after hostOps0 U (Proc.devRef .tc main_arg2) = U (Proc.devRef .tc main_arg2) := by not_written
theorem h0_arg3 : after hostOps0 U (Proc.devRef .tc main_arg3) = U (Proc.devRef .tc main_arg3) := by not_written
theorem h0_arg4 : after hostOps0 U (Proc.devRef .tc main_arg4) = U (Proc.devRef .tc main_arg4) := by not_written
theorem h0_arg5 : after hostOps0 U (Proc.devRef .tc main_arg5) = U (Proc.devRef .tc main_arg5) := by not_written

/-! ## The second stretch: the choice between the inverse square root and zero -/

theorem h01_v15 : after hostOps0_1 U (Proc.devRef .tc main_v15)
    = disK (F := F) (U (Proc.devRef .tc main_v11)) (U (Proc.devRef .tc main_v14)) (U (Proc.devRef .tc main_cst_4)) := by
  after_results <;> rfl
theorem h01_v1 : after hostOps0_1 U (Proc.devRef .tc main_v1) = U (Proc.devRef .tc main_v1) := by not_written
theorem h01_v3 : after hostOps0_1 U (Proc.devRef .tc main_v3) = U (Proc.devRef .tc main_v3) := by not_written
theorem h01_arg0 : after hostOps0_1 U (Proc.devRef .tc main_arg0) = U (Proc.devRef .tc main_arg0) := by not_written
theorem h01_arg2 : after hostOps0_1 U (Proc.devRef .tc main_arg2) = U (Proc.devRef .tc main_arg2) := by not_written
theorem h01_arg3 : after hostOps0_1 U (Proc.devRef .tc main_arg3) = U (Proc.devRef .tc main_arg3) := by not_written
theorem h01_arg4 : after hostOps0_1 U (Proc.devRef .tc main_arg4) = U (Proc.devRef .tc main_arg4) := by not_written
theorem h01_arg5 : after hostOps0_1 U (Proc.devRef .tc main_arg5) = U (Proc.devRef .tc main_arg5) := by not_written

/-! ## The third stretch: the factor as a column -/

theorem h02_v16 : after hostOps0_2 U (Proc.devRef .tc main_v16) = dis2d (F := F) (U (Proc.devRef .tc main_v15)) := by
  after_results <;> rfl
theorem h02_v1 : after hostOps0_2 U (Proc.devRef .tc main_v1) = U (Proc.devRef .tc main_v1) := by not_written
theorem h02_v3 : after hostOps0_2 U (Proc.devRef .tc main_v3) = U (Proc.devRef .tc main_v3) := by not_written
theorem h02_arg0 : after hostOps0_2 U (Proc.devRef .tc main_arg0) = U (Proc.devRef .tc main_arg0) := by not_written
theorem h02_arg2 : after hostOps0_2 U (Proc.devRef .tc main_arg2) = U (Proc.devRef .tc main_arg2) := by not_written
theorem h02_arg3 : after hostOps0_2 U (Proc.devRef .tc main_arg3) = U (Proc.devRef .tc main_arg3) := by not_written
theorem h02_arg4 : after hostOps0_2 U (Proc.devRef .tc main_arg4) = U (Proc.devRef .tc main_arg4) := by not_written
theorem h02_arg5 : after hostOps0_2 U (Proc.devRef .tc main_arg5) = U (Proc.devRef .tc main_arg5) := by not_written

/-! ## The stretch between the first and the second region: the first aggregation -/

theorem h1_v27 : after hostOps1 U (Proc.devRef .tc main_v27)
    = agg16 (F := F) (U (Proc.devRef .tc main_v1)) (U (Proc.devRef .tc main_v3)) (U (Proc.devRef .tc main_v17)) := by
  after_results_simp <;> rfl
theorem h1_v28 : after hostOps1 U (Proc.devRef .tc main_v28) = shapeCast S1x16 (U (Proc.devRef .tc main_arg3)) shapeCasts_S16_S1x16 := by
  after_results_simp <;> rfl
theorem h1_v17 : after hostOps1 U (Proc.devRef .tc main_v17) = U (Proc.devRef .tc main_v17) := by not_written
theorem h1_v16 : after hostOps1 U (Proc.devRef .tc main_v16) = U (Proc.devRef .tc main_v16) := by not_written
theorem h1_v1 : after hostOps1 U (Proc.devRef .tc main_v1) = U (Proc.devRef .tc main_v1) := by not_written
theorem h1_v3 : after hostOps1 U (Proc.devRef .tc main_v3) = U (Proc.devRef .tc main_v3) := by not_written
theorem h1_arg4 : after hostOps1 U (Proc.devRef .tc main_arg4) = U (Proc.devRef .tc main_arg4) := by not_written
theorem h1_arg5 : after hostOps1 U (Proc.devRef .tc main_arg5) = U (Proc.devRef .tc main_arg5) := by not_written

/-! ## The stretch between the second and the third region: the second aggregation -/

theorem h2_v39 : after hostOps2 U (Proc.devRef .tc main_v39)
    = agg64 (F := F) (U (Proc.devRef .tc main_v1)) (U (Proc.devRef .tc main_v3)) (U (Proc.devRef .tc main_v29)) := by
  after_results_simp <;> rfl
theorem h2_v40 : after hostOps2 U (Proc.devRef .tc main_v40) = shapeCast S1x64 (U (Proc.devRef .tc main_arg5)) shapeCasts_S64_S1x64 := by
  after_results_simp <;> rfl
theorem h2_v29 : after hostOps2 U (Proc.devRef .tc main_v29) = U (Proc.devRef .tc main_v29) := by not_written
theorem h2_v16 : after hostOps2 U (Proc.devRef .tc main_v16) = U (Proc.devRef .tc main_v16) := by not_written

end Cert.KernelIdeal.HostValue

end
-- ==== Proof.Region0Value.lean ====
import proofs.«171371_j15762529976715_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## Region 0: the rows of the product x · W, each scaled by its row's factor -/

/-- Entry (r, q) of the matrix product x · W (a sum over the 512 contracted columns), times the factor d of row r. -/
def G0 (x : S100000x512.Idx → EReal) (w : S512x16.Idx → EReal) (d : S100000x1.Idx → EReal) : S100000x16.Idx → EReal :=
  fun i => (∑ k : Fin 512, x (ix2 (⟨(i 0).val, (i 0).isLt⟩ : Fin 100000) k) * w (ix2 k (⟨(i 1).val, (i 1).isLt⟩ : Fin 16)))
    * d (ix2 (⟨(i 0).val, (i 0).isLt⟩ : Fin 100000) (0 : Fin 1))

/-- The zero offsets of a whole-block access. -/
theorem zero_offsets : (![0, 0] : Fin 2 → Nat) = fun _ => 0 := funext fun a => by fin_cases a <;> rfl

/-! ### The block product at an index -/

theorem lhs_row (j : S4000x16.Idx) (q : dot_S4000x512_S512x16_S4000x16_1_0_0_1_n_n.contr.Idx) :
    (dot_S4000x512_S512x16_S4000x16_1_0_0_1_n_n.lhsIdx j q 0).val = (j 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
theorem lhs_col (j : S4000x16.Idx) (q : dot_S4000x512_S512x16_S4000x16_1_0_0_1_n_n.contr.Idx) :
    (dot_S4000x512_S512x16_S4000x16_1_0_0_1_n_n.lhsIdx j q 1).val = (q ⟨0, by decide⟩).val :=
  dot_S4000x512_S512x16_S4000x16_1_0_0_1_n_n.lhsIdx_val_of_single rfl j q
theorem rhs_row (j : S4000x16.Idx) (q : dot_S4000x512_S512x16_S4000x16_1_0_0_1_n_n.contr.Idx) :
    (dot_S4000x512_S512x16_S4000x16_1_0_0_1_n_n.rhsIdx j q 0).val = (q ⟨0, by decide⟩).val :=
  dot_S4000x512_S512x16_S4000x16_1_0_0_1_n_n.rhsIdx_val_of_single rfl j q
theorem rhs_col (j : S4000x16.Idx) (q : dot_S4000x512_S512x16_S4000x16_1_0_0_1_n_n.contr.Idx) :
    (dot_S4000x512_S512x16_S4000x16_1_0_0_1_n_n.rhsIdx j q 1).val = (j 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- The block product into a zero accumulator, read at an index: the sum over the contracted axis. -/
theorem block_product_apply (a : FVec Ideal S4000x512 .bf16) (b : FVec Ideal S512x16 .bf16) (j : S4000x16.Idx) :
    matmul dot_S4000x512_S512x16_S4000x16_1_0_0_1_n_n none a b (constant (F := Ideal) S4000x16 .f32 0x00000000#32) j
      = ∑ k : Fin 512, a (ix2 (⟨(j 0).val, (j 0).isLt⟩ : Fin 4000) k) * b (ix2 k (⟨(j 1).val, (j 1).isLt⟩ : Fin 16)) := by
  simp only [matmul]
  rw [Ideal.matmul_constant_zero_apply, ← Equiv.sum_comp (ValueIdx.contrEquiv1 dot_S4000x512_S512x16_S4000x16_1_0_0_1_n_n 512 rfl rfl).symm]
  refine Finset.sum_congr rfl fun k _ => ?_
  have hk := ValueIdx.contrEquiv1_symm_val dot_S4000x512_S512x16_S4000x16_1_0_0_1_n_n 512 rfl rfl k
  have el : dot_S4000x512_S512x16_S4000x16_1_0_0_1_n_n.lhsIdx j ((ValueIdx.contrEquiv1 dot_S4000x512_S512x16_S4000x16_1_0_0_1_n_n 512 rfl rfl).symm k) = ix2 (⟨(j 0).val, (j 0).isLt⟩ : Fin 4000) k := funext fun a => Fin.ext (by
    match a with
    | ⟨0, _⟩ => exact lhs_row _ _
    | ⟨1, _⟩ => exact (lhs_col _ _).trans hk)
  have er : dot_S4000x512_S512x16_S4000x16_1_0_0_1_n_n.rhsIdx j ((ValueIdx.contrEquiv1 dot_S4000x512_S512x16_S4000x16_1_0_0_1_n_n 512 rfl rfl).symm k) = ix2 k (⟨(j 1).val, (j 1).isLt⟩ : Fin 16) := funext fun a => Fin.ext (by
    match a with
    | ⟨0, _⟩ => exact (rhs_row _ _).trans hk
    | ⟨1, _⟩ => exact rhs_col _ _)
  rw [el, er]

/-- The column of factors spread along the 16 columns, read at an index: the factor of the index's row. -/
theorem spread_apply (d : S4000x1.Idx → EReal) (j : S4000x16.Idx) :
    broadcastTo S4000x16 d broadcasts_S4000x1_S4000x16 j = d (ix2 (⟨(j 0).val, (j 0).isLt⟩ : Fin 4000) (0 : Fin 1)) :=
  broadcastTo_apply d broadcasts_S4000x1_S4000x16 j _ (fun a => by
    match a with
    | ⟨0, _⟩ => show (j 0).val = if (4000 : Nat) = 1 then 0 else (j 0).val; rw [if_neg (by decide)]
    | ⟨1, _⟩ => show (0 : Nat) = if (1 : Nat) = 1 then 0 else (j 1).val; rw [if_pos rfl])

/-- The body's payload at an index of the block: the block's product entry times the row's factor. -/
theorem payload_apply (x : Vec Ideal S4000x512 .f32) (w : Vec Ideal S512x16 .f32) (d : Vec Ideal S4000x1 .f32) (j : S4000x16.Idx) :
    k0_pay1 (F := Ideal) x w d j
      = (∑ k : Fin 512, x (ix2 (⟨(j 0).val, (j 0).isLt⟩ : Fin 4000) k) * w (ix2 k (⟨(j 1).val, (j 1).isLt⟩ : Fin 16)))
        * d (ix2 (⟨(j 0).val, (j 0).isLt⟩ : Fin 4000) (0 : Fin 1)) := by
  unfold k0_pay1
  dsimp only
  rw [mulf_apply, block_product_apply, shapeCast_self, spread_apply]
  rfl

/-! ### From the blocks to the array -/

section Array

variable (V : (c : Dev nD) → (b : Ref sig .tc) → Buf (Elt Ideal) ((c : Thread nD τ).loc b))

/-- The printed index maps, decided over the 25 grid points: the row-blocked windows sit at block row t, the
    whole-array window and every column block at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point t writes back is block t of G0 of the arrays as the region finds them. -/
theorem flushed_eq (c : Dev nD) (t : Fin cfg0.N) :
    (dat0 (F := Ideal) V c).flushed 3 t
      = ((cfg0.win 3).blk t).view.read (Elt Ideal)
          (G0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S4000x512) zero_offsets, View.ld_unit_zero (S := S512x16) zero_offsets, View.ld_unit_zero (S := S4000x1) zero_offsets]
  obtain ⟨e00, e01, e10, e11, e20, e21, e30, e31⟩ := idx_facts t
  funext j
  refine (payload_apply (iblk0 V c 0 t) (iblk0 V c 1 t) (iblk0 V c 2 t) j).trans ?_
  show _ = G0 (V c (Pipeline.arrRef spec0 0)) (V c (Pipeline.arrRef spec0 1)) (V c (Pipeline.arrRef spec0 2)) (((cfg0.win 3).blk t).view.emb j)
  unfold G0
  have hj0 : (j 0).val < 4000 := (j 0).isLt
  have hj1 : (j 1).val < 16 := (j 1).isLt
  have h0 : ∀ k : Fin 512, ((cfg0.win 0).blk t).view.emb (ix2 (⟨(j 0).val, (j 0).isLt⟩ : Fin 4000) k)
      = ix2 (⟨((((cfg0.win 3).blk t).view.emb j) 0).val, ((((cfg0.win 3).blk t).view.emb j) 0).isLt⟩ : Fin 100000) k := by
    intro k; funext a; apply Fin.ext
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 512 + 1 * k.val = k.val; omega
  have h1 : ∀ k : Fin 512, ((cfg0.win 1).blk t).view.emb (ix2 k (⟨(j 1).val, (j 1).isLt⟩ : Fin 16))
      = ix2 k (⟨((((cfg0.win 3).blk t).view.emb j) 1).val, ((((cfg0.win 3).blk t).view.emb j) 1).isLt⟩ : Fin 16) := by
    intro k; funext a; apply Fin.ext
    match a with
    | ⟨0, _⟩ => show win0_1.index t (0 : Fin 2) * 512 + 1 * k.val = k.val; omega
    | ⟨1, _⟩ => show win0_1.index t (1 : Fin 2) * 16 + 1 * (j 1).val = win0_3.index t (1 : Fin 2) * 16 + 1 * (j 1).val; omega
  have h2 : ((cfg0.win 2).blk t).view.emb (ix2 (⟨(j 0).val, (j 0).isLt⟩ : Fin 4000) (0 : Fin 1))
      = ix2 (⟨((((cfg0.win 3).blk t).view.emb j) 0).val, ((((cfg0.win 3).blk t).view.emb j) 0).isLt⟩ : Fin 100000) (0 : Fin 1) := by
    funext a; apply Fin.ext
    match a with
    | ⟨0, _⟩ => show win0_2.index t (0 : Fin 2) * 4000 + 1 * (j 0).val = win0_3.index t (0 : Fin 2) * 4000 + 1 * (j 0).val; omega
    | ⟨1, _⟩ => show win0_2.index t (1 : Fin 2) * 1 + 1 * 0 = 0; omega
  congr 1
  · refine Finset.sum_congr rfl fun k _ => ?_
    congr 1
    · exact congrArg (V c (Pipeline.arrRef spec0 0)) (h0 k)
    · exact congrArg (V c (Pipeline.arrRef spec0 1)) (h1 k)
  · exact congrArg (V c (Pipeline.arrRef spec0 2)) h2

/-- An index of the array is in point t's block iff each coordinate is in the block's range on its axis. -/
theorem mem_blk (t : Fin cfg0.N) (i : S100000x16.Idx) :
    i ∈ ((cfg0.win 3).blk t).view.set ↔ ∀ a : Fin 2, win0_3.index t a * S4000x16.size a ≤ (i a).val ∧ (i a).val < win0_3.index t a * S4000x16.size a + S4000x16.size a := by
  show i ∈ ((View.whole main_v17).slice (win0_3.rect t)).set ↔ _
  rw [View.set_slice_whole, Rect.mem_set_unit]
  exact Iff.rfl

/-- Every row r of the array is in the block of the point r / 4000, which writes its block back. -/
theorem covered (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 25 := N_0
  have ht : (i 0).val / 4000 < cfg0.N := by rw [hN]; omega
  obtain ⟨-, -, -, -, -, -, e30, e31⟩ := idx_facts ⟨(i 0).val / 4000, ht⟩
  have e30' : win0_3.index ⟨(i 0).val / 4000, ht⟩ (0 : Fin 2) = (i 0).val / 4000 := e30
  refine ⟨⟨(i 0).val / 4000, ht⟩, flush0_3 _, ?_⟩
  rw [mem_blk]
  intro a
  match a with
  | ⟨0, _⟩ => show win0_3.index ⟨(i 0).val / 4000, ht⟩ (0 : Fin 2) * 4000 ≤ (i 0).val ∧ (i 0).val < win0_3.index ⟨(i 0).val / 4000, ht⟩ (0 : Fin 2) * 4000 + 4000; omega
  | ⟨1, _⟩ => show win0_3.index ⟨(i 0).val / 4000, ht⟩ (1 : Fin 2) * 16 ≤ (i 1).val ∧ (i 1).val < win0_3.index ⟨(i 0).val / 4000, ht⟩ (1 : Fin 2) * 16 + 16; omega

/-- THE OUTPUT ARRAY AFTER REGION 0: the rows of x · W scaled by their factors, as one function of the three
    input arrays as the region finds them. -/
theorem region0_value (c : Dev nD) :
    (dat0 (F := Ideal) V c).arrAt 3 cfg0.N
      = G0 (V c (Pipeline.arrRef spec0 0)) (V c (Pipeline.arrRef spec0 1)) (V c (Pipeline.arrRef spec0 2)) :=
  (dat0 (F := Ideal) V c).arrAt_eq_of_cover 3 _ (fun t _ => flushed_eq V c t) covered

end Array

end Cert.KernelIdeal.Region0

end
-- ==== Proof.Region1Value.lean ====
import proofs.«171371_j15762529976715_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# Region 1's output array as one function of its input arrays

Region 1's body, on row blocks of 4000 rows, computes from a block of two feature arrays `agg`, `sh`
([rows, 16]), a column `d` ([rows, 1]), a bias row `b` ([1, 16]) and a weight matrix `w` ([16, 64])

  out[r, q] = (∑ₖ max (d[r] · (agg[r, k] + sh[r, k]) + b[k]) 0 · w[k, q]) · d[r].

Every row of the output depends on the same row of the row-blocked inputs only, so the 25 blocks are the
restrictions of ONE function of the whole arrays, and they tile the 100000 rows.
-/

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's value at one index of a block -/

/-- The matrix product's left operand index at output index `j` and contraction position `κ`: row of `j`, … -/
theorem lhs_row (j : S4000x64.Idx) (κ : dot_S4000x16_S16x64_S4000x64_1_0_0_1_n_n.contr.Idx) :
    (dot_S4000x16_S16x64_S4000x64_1_0_0_1_n_n.lhsIdx j κ 0).val = (j 0).val := by
  unfold DotDims.lhsIdx
  rw [dif_neg (show ¬(0 : Fin S4000x16.rank) ∈ dot_S4000x16_S16x64_S4000x64_1_0_0_1_n_n.lhsBatch by decide),
    dif_pos (show (0 : Fin S4000x16.rank) ∈ dot_S4000x16_S16x64_S4000x64_1_0_0_1_n_n.lhsNonContracting by decide)]
  rfl
/-- … column `κ`. -/
theorem lhs_col (j : S4000x64.Idx) (κ : dot_S4000x16_S16x64_S4000x64_1_0_0_1_n_n.contr.Idx) :
    (dot_S4000x16_S16x64_S4000x64_1_0_0_1_n_n.lhsIdx j κ 1).val = (κ ⟨0, by decide⟩).val :=
  dot_S4000x16_S16x64_S4000x64_1_0_0_1_n_n.lhsIdx_val_of_single rfl j κ
/-- The right operand index: row `κ`, … -/
theorem rhs_row (j : S4000x64.Idx) (κ : dot_S4000x16_S16x64_S4000x64_1_0_0_1_n_n.contr.Idx) :
    (dot_S4000x16_S16x64_S4000x64_1_0_0_1_n_n.rhsIdx j κ 0).val = (κ ⟨0, by decide⟩).val :=
  dot_S4000x16_S16x64_S4000x64_1_0_0_1_n_n.rhsIdx_val_of_single rfl j κ
/-- … column of `j`. -/
theorem rhs_col (j : S4000x64.Idx) (κ : dot_S4000x16_S16x64_S4000x64_1_0_0_1_n_n.contr.Idx) :
    (dot_S4000x16_S16x64_S4000x64_1_0_0_1_n_n.rhsIdx j κ 1).val = (j 1).val := by
  unfold DotDims.rhsIdx
  rw [dif_neg (show ¬(1 : Fin S16x64.rank) ∈ dot_S4000x16_S16x64_S4000x64_1_0_0_1_n_n.rhsBatch by decide),
    dif_pos (show (1 : Fin S16x64.rank) ∈ dot_S4000x16_S16x64_S4000x64_1_0_0_1_n_n.rhsNonContracting by decide)]
  rfl

/-- The body's result at row `p`, column `q` of a block, from the loaded blocks `x0 … x4` (the column block `x2` is
    loaded twice): the rectified affine combination of row `p`, times the weight matrix, times the row's scale. -/
theorem payload_apply (x0 x1 : FVec Ideal S4000x16 .f32) (x2 : FVec Ideal S4000x1 .f32) (x3 : FVec Ideal S1x16 .f32)
    (x4 : FVec Ideal S16x64 .f32) (p : Fin 4000) (q : Fin 64) :
    k1_pay1 (F := Ideal) x0 x1 x2 x3 x4 x2 (ix2 p q)
      = (∑ k : Fin 16, max (x2 (ix2 p 0) * (x0 (ix2 p k) + x1 (ix2 p k)) + x3 (ix2 0 k)) (Ideal.ofBits .f32 0x00000000#32)
            * x4 (ix2 k q)) * x2 (ix2 p 0) := by
  unfold k1_pay1
  simp only [shapeCast_self]
  rw [mulf_apply, broadcastTo_apply x2 broadcasts_S4000x1_S4000x64 (ix2 p q) (ix2 p 0)
    (by intro a; match a with | ⟨0, _⟩ => rfl | ⟨1, _⟩ => rfl)]
  congr 1
  show FloatOps.matmul dot_S4000x16_S16x64_S4000x64_1_0_0_1_n_n none _ _ (constant S4000x64 .f32 0x00000000#32) (ix2 p q) = _
  rw [Ideal.matmul_constant_zero_apply,
    ← Equiv.sum_comp (contrEquiv1 dot_S4000x16_S16x64_S4000x64_1_0_0_1_n_n 16 rfl rfl).symm]
  refine Finset.sum_congr rfl fun k _ => ?_
  have hk := contrEquiv1_symm_val dot_S4000x16_S16x64_S4000x64_1_0_0_1_n_n 16 rfl rfl k
  have el : dot_S4000x16_S16x64_S4000x64_1_0_0_1_n_n.lhsIdx (ix2 p q)
      ((contrEquiv1 dot_S4000x16_S16x64_S4000x64_1_0_0_1_n_n 16 rfl rfl).symm k) = ix2 p k := funext fun a => Fin.ext (by
    match a with
    | ⟨0, _⟩ => exact lhs_row _ _
    | ⟨1, _⟩ => exact (lhs_col _ _).trans hk)
  have er : dot_S4000x16_S16x64_S4000x64_1_0_0_1_n_n.rhsIdx (ix2 p q)
      ((contrEquiv1 dot_S4000x16_S16x64_S4000x64_1_0_0_1_n_n 16 rfl rfl).symm k) = ix2 k q := funext fun a => Fin.ext (by
    match a with
    | ⟨0, _⟩ => exact (rhs_row _ _).trans hk
    | ⟨1, _⟩ => exact rhs_col _ _)
  rw [el, er, truncf_apply, truncf_apply, maximumf_apply, addf_apply, mulf_apply, addf_apply, broadcast_apply,
    broadcastTo_apply x2 broadcasts_S4000x1_S4000x16 (ix2 p k) (ix2 p 0)
      (by intro a; match a with | ⟨0, _⟩ => rfl | ⟨1, _⟩ => rfl),
    broadcastTo_apply x3 broadcasts_S1x16_S4000x16 (ix2 p k) (ix2 0 k)
      (by intro a; match a with | ⟨0, _⟩ => rfl | ⟨1, _⟩ => rfl)]
  rfl

/-! ## The closed form -/

/-- The region's output as a function of its five input arrays: row `r`, column `q` is
    `(∑ₖ max (d r · (agg r k + sh r k) + b k) 0 · w k q) · d r`. -/
def G1 (agg sh : S100000x16.Idx → EReal) (d : S100000x1.Idx → EReal) (b : S1x16.Idx → EReal) (w : S16x64.Idx → EReal) :
    S100000x64.Idx → EReal :=
  fun i => (∑ k : Fin 16,
      max (d (ix2 (⟨(i 0).val, (i 0).isLt⟩ : Fin 100000) (0 : Fin 1))
            * (agg (ix2 (⟨(i 0).val, (i 0).isLt⟩ : Fin 100000) k) + sh (ix2 (⟨(i 0).val, (i 0).isLt⟩ : Fin 100000) k))
          + b (ix2 (0 : Fin 1) k)) (Ideal.ofBits .f32 0x00000000#32)
        * w (ix2 k (⟨(i 1).val, (i 1).isLt⟩ : Fin 64)))
    * d (ix2 (⟨(i 0).val, (i 0).isLt⟩ : Fin 100000) (0 : Fin 1))

/-- The body's result at index `j` of a block is `G1` of the arrays at the array index `i` that lies `o` rows below
    `j`, when the row-blocked inputs' blocks are the arrays' rows from `o` on and the two small inputs' blocks are
    the whole arrays. -/
theorem block_value (A0 A1 : S100000x16.Idx → EReal) (A2 : S100000x1.Idx → EReal) (A3 : S1x16.Idx → EReal)
    (A4 : S16x64.Idx → EReal)
    (x0 x1 : FVec Ideal S4000x16 .f32) (x2 : FVec Ideal S4000x1 .f32) (x3 : FVec Ideal S1x16 .f32)
    (x4 : FVec Ideal S16x64 .f32) (j : S4000x64.Idx) (i : S100000x64.Idx) (o : Nat)
    (hi0 : (i 0).val = o + (j 0).val) (hi1 : (i 1).val = (j 1).val)
    (h0 : ∀ (y : S4000x16.Idx) (z : S100000x16.Idx), (z 0).val = o + (y 0).val → (z 1).val = (y 1).val → x0 y = A0 z)
    (h1 : ∀ (y : S4000x16.Idx) (z : S100000x16.Idx), (z 0).val = o + (y 0).val → (z 1).val = (y 1).val → x1 y = A1 z)
    (h2 : ∀ (y : S4000x1.Idx) (z : S100000x1.Idx), (z 0).val = o + (y 0).val → (z 1).val = (y 1).val → x2 y = A2 z)
    (h3 : ∀ (y : S1x16.Idx) (z : S1x16.Idx), (z 0).val = (y 0).val → (z 1).val = (y 1).val → x3 y = A3 z)
    (h4 : ∀ (y : S16x64.Idx) (z : S16x64.Idx), (z 0).val = (y 0).val → (z 1).val = (y 1).val → x4 y = A4 z) :
    k1_pay1 (F := Ideal) x0 x1 x2 x3 x4 x2 j = G1 A0 A1 A2 A3 A4 i := by
  obtain ⟨p, q, rfl⟩ : ∃ (p : Fin 4000) (q : Fin 64), j = ix2 p q := ⟨j 0, j 1, eq_ix2 j⟩
  rw [payload_apply]
  unfold G1
  rw [h2 (ix2 p 0) (ix2 (⟨(i 0).val, (i 0).isLt⟩ : Fin 100000) (0 : Fin 1)) hi0 rfl]
  congr 1
  refine Finset.sum_congr rfl fun k _ => ?_
  rw [h0 (ix2 p k) (ix2 (⟨(i 0).val, (i 0).isLt⟩ : Fin 100000) k) hi0 rfl,
    h1 (ix2 p k) (ix2 (⟨(i 0).val, (i 0).isLt⟩ : Fin 100000) k) hi0 rfl,
    h3 (ix2 0 k) (ix2 (0 : Fin 1) k) rfl rfl,
    h4 (ix2 k q) (ix2 k (⟨(i 1).val, (i 1).isLt⟩ : Fin 64)) rfl hi1]

/-! ## From the blocks to the array -/

theorem zero_offsets : (![0, 0] : Fin 2 → Nat) = fun _ => 0 := funext fun a => by fin_cases a <;> rfl

/-- The index maps, decided over the 25 grid points: the row-blocked windows (the three inputs and the output) are at
    block (t, 0), the two whole-array windows at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G1` of the arrays as the region finds them. -/
theorem flushed_eq (V : (c : Dev nD) → (b : Ref sig .tc) → Buf (Elt Ideal) ((c : Thread nD τ).loc b)) (c : Dev nD)
    (t : Fin cfg1.N) :
    (dat1 (F := Ideal) V c).flushed 5 t = ((cfg1.win 5).blk t).view.read (Elt Ideal)
      (G1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets]
  simp only [View.ld_unit_zero (S := S4000x16) zero_offsets, View.ld_unit_zero (S := S4000x1) zero_offsets,
    View.ld_unit_zero (S := S1x16) zero_offsets, View.ld_unit_zero (S := S16x64) zero_offsets]
  obtain ⟨e00, e01, e10, e11, e20, e21, e30, e31, e40, e41, e50, e51⟩ := index_maps t
  funext j
  exact block_value (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) j
    (((cfg1.win 5).blk t).view.emb j) (4000 * t.val)
    (by show win1_5.index t (0 : Fin 2) * 4000 + 1 * (j 0).val = 4000 * t.val + (j 0).val; omega)
    (by show win1_5.index t (1 : Fin 2) * 64 + 1 * (j 1).val = (j 1).val; omega)
    (fun y z hz0 hz1 => congrArg (V c (Pipeline.arrRef spec1 0)) (funext fun a => Fin.ext (by
      match a with
      | ⟨0, _⟩ => show win1_0.index t (0 : Fin 2) * 4000 + 1 * (y 0).val = (z 0).val; omega
      | ⟨1, _⟩ => show win1_0.index t (1 : Fin 2) * 16 + 1 * (y 1).val = (z 1).val; omega)))
    (fun y z hz0 hz1 => congrArg (V c (Pipeline.arrRef spec1 1)) (funext fun a => Fin.ext (by
      match a with
      | ⟨0, _⟩ => show win1_1.index t (0 : Fin 2) * 4000 + 1 * (y 0).val = (z 0).val; omega
      | ⟨1, _⟩ => show win1_1.index t (1 : Fin 2) * 16 + 1 * (y 1).val = (z 1).val; omega)))
    (fun y z hz0 hz1 => congrArg (V c (Pipeline.arrRef spec1 2)) (funext fun a => Fin.ext (by
      match a with
      | ⟨0, _⟩ => show win1_2.index t (0 : Fin 2) * 4000 + 1 * (y 0).val = (z 0).val; omega
      | ⟨1, _⟩ => show win1_2.index t (1 : Fin 2) * 1 + 1 * (y 1).val = (z 1).val; omega)))
    (fun y z hz0 hz1 => congrArg (V c (Pipeline.arrRef spec1 3)) (funext fun a => Fin.ext (by
      match a with
      | ⟨0, _⟩ => show win1_3.index t (0 : Fin 2) * 1 + 1 * (y 0).val = (z 0).val; omega
      | ⟨1, _⟩ => show win1_3.index t (1 : Fin 2) * 16 + 1 * (y 1).val = (z 1).val; omega)))
    (fun y z hz0 hz1 => congrArg (V c (Pipeline.arrRef spec1 4)) (funext fun a => Fin.ext (by
      match a with
      | ⟨0, _⟩ => show win1_4.index t (0 : Fin 2) * 16 + 1 * (y 0).val = (z 0).val; omega
      | ⟨1, _⟩ => show win1_4.index t (1 : Fin 2) * 64 + 1 * (y 1).val = (z 1).val; omega)))

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v29).slice (win1_5.rect t)).set ↔ _
  rw [View.set_slice_whole, Rect.mem_set_unit]
  exact Iff.rfl

/-- The blocks tile the array: row `r` is in the block of point `r / 4000`. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, e50, e51⟩ := index_maps t
  refine ⟨t, flush1_5 t, ?_⟩
  rw [mem_blk]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 64 ≤ (i 1).val ∧ (i 1).val < win1_5.index t (1 : Fin 2) * 64 + 64
    omega

/-- REGION 1's OUTPUT ARRAY after the region is `G1` of the five input arrays as the region finds them. -/
theorem region1_value (V : (c : Dev nD) → (b : Ref sig .tc) → Buf (Elt Ideal) ((c : Thread nD τ).loc b)) (c : Dev nD) :
    (dat1 (F := Ideal) V c).arrAt 5 cfg1.N
      = G1 (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed_eq V c t) covered

end Cert.KernelIdeal.Region1

end
-- ==== Proof.Region2Value.lean ====
import proofs.«171371_j15762529976715_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
# The third region's output array as one function of its input arrays

The region adds a bias row to a row-scaled sum: at row `r` and lane `q` the output is
`d r * (agg r q + sh r q) + b q`. The grid has 25 points; point `t` works on rows
`4000 t … 4000 t + 3999`, so the 25 blocks tile the 100000 rows and the array after the region is
that function at every index.

Also here: a column `[a, 1]` broadcast along lanes, and a row `[1, b]` broadcast along rows, read at an
index, each behind an identity shape cast as the kernels print them.
-/

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-! ## Broadcasts read at an index -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The per-row scale of a `[4000, 16]` block: the column, cast to its own shape and broadcast along lanes. -/
theorem col_bcast16_apply {α : Type} (y : S4000x1.Idx → α) (p : Fin 4000) (q : Fin 16) :
    broadcastTo S4000x16 (shapeCast S4000x1 y shapeCasts_S4000x1_S4000x1) broadcasts_S4000x1_S4000x16 (ix2 p q)
      = y (ix2 p (0 : Fin 1)) := by
  rw [shapeCast_self]
  exact broadcastTo_a1_ab_apply y broadcasts_S4000x1_S4000x16 p q

/-- The per-row scale of a `[4000, 64]` block. -/
theorem col_bcast64_apply {α : Type} (y : S4000x1.Idx → α) (p : Fin 4000) (q : Fin 64) :
    broadcastTo S4000x64 (shapeCast S4000x1 y shapeCasts_S4000x1_S4000x1) broadcasts_S4000x1_S4000x64 (ix2 p q)
      = y (ix2 p (0 : Fin 1)) := by
  rw [shapeCast_self]
  exact broadcastTo_a1_ab_apply y broadcasts_S4000x1_S4000x64 p q

/-- A bias row of 16 lanes, cast to its own shape and broadcast along the 4000 rows. -/
theorem row_bcast16_apply {α : Type} (y : S1x16.Idx → α) (p : Fin 4000) (q : Fin 16) :
    broadcastTo S4000x16 (shapeCast S1x16 y shapeCasts_S1x16_S1x16) broadcasts_S1x16_S4000x16 (ix2 p q)
      = y (ix2 (0 : Fin 1) q) := by
  rw [shapeCast_self]
  exact broadcastTo_1b_ab_apply y broadcasts_S1x16_S4000x16 p q

/-- A bias row of 64 lanes, cast to its own shape and broadcast along the 4000 rows. -/
theorem row_bcast64_apply {α : Type} (y : S1x64.Idx → α) (p : Fin 4000) (q : Fin 64) :
    broadcastTo S4000x64 (shapeCast S1x64 y shapeCasts_S1x64_S1x64) broadcasts_S1x64_S4000x64 (ix2 p q)
      = y (ix2 (0 : Fin 1) q) := by
  rw [shapeCast_self]
  exact broadcastTo_1b_ab_apply y broadcasts_S1x64_S4000x64 p q

/-! ## The region's function -/

/-- The array the region leaves: at row `r`, lane `q`: `d r * (agg r q + sh r q) + b q`. -/
def G2 (agg sh : S100000x64.Idx → EReal) (d : S100000x1.Idx → EReal) (b : S1x64.Idx → EReal) :
    S100000x64.Idx → EReal :=
  fun i => d (ix2 (⟨(i 0).val, (i 0).isLt⟩ : Fin 100000) (0 : Fin 1)) * (agg i + sh i)
    + b (ix2 (0 : Fin 1) (⟨(i 1).val, (i 1).isLt⟩ : Fin 64))

theorem offsets_zero : (![0, 0] : Fin 2 → Nat) = fun _ => 0 := funext fun a => by fin_cases a <;> rfl

/-- The body's arithmetic on one block, read at row `p` and lane `q` of the block. -/
theorem block_value_apply (x0 x1 : S4000x64.Idx → EReal) (x2 : S4000x1.Idx → EReal) (x3 : S1x64.Idx → EReal)
    (p : Fin 4000) (q : Fin 64) :
    k2_pay1 (F := Ideal) x0 x1 x2 x3 (ix2 p q)
      = x2 (ix2 p (0 : Fin 1)) * (x0 (ix2 p q) + x1 (ix2 p q)) + x3 (ix2 (0 : Fin 1) q) := by
  unfold k2_pay1
  rw [addf_apply, mulf_apply, addf_apply, col_bcast64_apply, row_bcast64_apply, shapeCast_self, shapeCast_self]

/-- The same, as a function of the block's index. -/
theorem block_value (x0 x1 : S4000x64.Idx → EReal) (x2 : S4000x1.Idx → EReal) (x3 : S1x64.Idx → EReal) :
    k2_pay1 (F := Ideal) x0 x1 x2 x3
      = fun j : S4000x64.Idx => x2 (ix2 (⟨(j 0).val, (j 0).isLt⟩ : Fin 4000) (0 : Fin 1)) * (x0 j + x1 j)
          + x3 (ix2 (0 : Fin 1) (⟨(j 1).val, (j 1).isLt⟩ : Fin 64)) := by
  funext j
  obtain ⟨p, q, rfl⟩ : ∃ (p : Fin 4000) (q : Fin 64), j = ix2 p q := ⟨j 0, j 1, eq_ix2 j⟩
  exact block_value_apply x0 x1 x2 x3 p q

/-! ## The blocks -/

/-- The printed index maps over the 25 points: the row-blocked windows are at block `(t, 0)`, the bias row at `(0, 0)`. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The two summands' blocks at point `t` sit where the output's block sits. -/
theorem emb_agg (t : Fin cfg2.N) (j : S4000x64.Idx) :
    ((cfg2.win 0).blk t).view.emb j = ((cfg2.win 4).blk t).view.emb j := by
  obtain ⟨e00, e01, -, -, -, -, -, -, e40, e41⟩ := block_index t
  funext a; apply Fin.ext
  match a with
  | ⟨0, _⟩ => show win2_0.index t (0 : Fin 2) * 4000 + 1 * (j 0).val = win2_4.index t (0 : Fin 2) * 4000 + 1 * (j 0).val; omega
  | ⟨1, _⟩ => show win2_0.index t (1 : Fin 2) * 64 + 1 * (j 1).val = win2_4.index t (1 : Fin 2) * 64 + 1 * (j 1).val; omega

theorem emb_sh (t : Fin cfg2.N) (j : S4000x64.Idx) :
    ((cfg2.win 1).blk t).view.emb j = ((cfg2.win 4).blk t).view.emb j := by
  obtain ⟨-, -, e10, e11, -, -, -, -, e40, e41⟩ := block_index t
  funext a; apply Fin.ext
  match a with
  | ⟨0, _⟩ => show win2_1.index t (0 : Fin 2) * 4000 + 1 * (j 0).val = win2_4.index t (0 : Fin 2) * 4000 + 1 * (j 0).val; omega
  | ⟨1, _⟩ => show win2_1.index t (1 : Fin 2) * 64 + 1 * (j 1).val = win2_4.index t (1 : Fin 2) * 64 + 1 * (j 1).val; omega

/-- The scale column's block at point `t` holds the rows of the output's block. -/
theorem emb_scale (t : Fin cfg2.N) (j : S4000x64.Idx) :
    ((cfg2.win 2).blk t).view.emb (ix2 (⟨(j 0).val, (j 0).isLt⟩ : Fin 4000) (0 : Fin 1))
      = ix2 (⟨((((cfg2.win 4).blk t).view.emb j) 0).val, ((((cfg2.win 4).blk t).view.emb j) 0).isLt⟩ : Fin 100000) (0 : Fin 1) := by
  obtain ⟨-, -, -, -, e20, e21, -, -, e40, e41⟩ := block_index t
  funext a; apply Fin.ext
  match a with
  | ⟨0, _⟩ => show win2_2.index t (0 : Fin 2) * 4000 + 1 * (j 0).val = win2_4.index t (0 : Fin 2) * 4000 + 1 * (j 0).val; omega
  | ⟨1, _⟩ => show win2_2.index t (1 : Fin 2) * 1 + 1 * 0 = 0; omega

/-- The bias row's one block is the whole row at every point. -/
theorem emb_bias (t : Fin cfg2.N) (j : S4000x64.Idx) :
    ((cfg2.win 3).blk t).view.emb (ix2 (0 : Fin 1) (⟨(j 1).val, (j 1).isLt⟩ : Fin 64))
      = ix2 (0 : Fin 1) (⟨((((cfg2.win 4).blk t).view.emb j) 1).val, ((((cfg2.win 4).blk t).view.emb j) 1).isLt⟩ : Fin 64) := by
  obtain ⟨-, -, -, -, -, -, e30, e31, e40, e41⟩ := block_index t
  funext a; apply Fin.ext
  match a with
  | ⟨0, _⟩ => show win2_3.index t (0 : Fin 2) * 1 + 1 * 0 = 0; omega
  | ⟨1, _⟩ => show win2_3.index t (1 : Fin 2) * 64 + 1 * (j 1).val = win2_4.index t (1 : Fin 2) * 64 + 1 * (j 1).val; omega

/-- The input blocks of point `t`, combined as the body combines them, are block `t` of `G2`. -/
theorem block_read (agg sh : S100000x64.Idx → EReal) (d : S100000x1.Idx → EReal) (b : S1x64.Idx → EReal)
    (t : Fin cfg2.N) (j : S4000x64.Idx) :
    d (((cfg2.win 2).blk t).view.emb (ix2 (⟨(j 0).val, (j 0).isLt⟩ : Fin 4000) (0 : Fin 1)))
        * (agg (((cfg2.win 0).blk t).view.emb j) + sh (((cfg2.win 1).blk t).view.emb j))
      + b (((cfg2.win 3).blk t).view.emb (ix2 (0 : Fin 1) (⟨(j 1).val, (j 1).isLt⟩ : Fin 64)))
    = G2 agg sh d b (((cfg2.win 4).blk t).view.emb j) := by
  rw [emb_agg, emb_sh, emb_scale, emb_bias]
  rfl

/-- An index of the array is in point `t`'s block iff each coordinate is in the block's range on its axis. -/
theorem mem_block (t : Fin cfg2.N) (i : S100000x64.Idx) :
    i ∈ ((cfg2.win 4).blk t).view.set ↔ ∀ a : Fin 2, win2_4.index t a * S4000x64.size a ≤ (i a).val
      ∧ (i a).val < win2_4.index t a * S4000x64.size a + S4000x64.size a := by
  show i ∈ ((View.whole main_v41).slice (win2_4.rect t)).set ↔ _
  rw [View.set_slice_whole, Rect.mem_set_unit]
  exact Iff.rfl

/-- Row `r` lies in the block of point `r / 4000`: the 25 blocks of 4000 rows tile the 100000 rows. -/
theorem covered (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  let t : Fin cfg2.N := ⟨(i 0).val / 4000, by rw [hN]; omega⟩
  obtain ⟨-, -, -, -, -, -, -, -, e40, e41⟩ := block_index t
  have ht : t.val = (i 0).val / 4000 := rfl
  refine ⟨t, flush2_4 t, ?_⟩
  rw [mem_block]
  intro a
  match a with
  | ⟨0, _⟩ =>
    show win2_4.index t (0 : Fin 2) * 4000 ≤ (i 0).val ∧ (i 0).val < win2_4.index t (0 : Fin 2) * 4000 + 4000
    omega
  | ⟨1, _⟩ =>
    show win2_4.index t (1 : Fin 2) * 64 ≤ (i 1).val ∧ (i 1).val < win2_4.index t (1 : Fin 2) * 64 + 64
    omega

variable (V : (c : Dev nD) → (b : Ref sig .tc) → Buf (Elt Ideal) ((c : Thread nD τ).loc b))

/-- What point `t` writes back is block `t` of `G2` of the arrays as the region finds them. -/
theorem flushed_eq (c : Dev nD) (t : Fin cfg2.N) :
    (dat2 (F := Ideal) V c).flushed 4 t
      = ((cfg2.win 4).blk t).view.read (Elt Ideal)
          (G2 (V c (Pipeline.arrRef spec2 0)) (V c (Pipeline.arrRef spec2 1)) (V c (Pipeline.arrRef spec2 2))
            (V c (Pipeline.arrRef spec2 3))) := by
  show (cfg2.win 4).cut (grid2.coords t) ((dat2 V c).after 4 t) = _
  rw [after2_4]
  unfold out2_4
  rw [View.canon_unit_zero offsets_zero]
  simp only [View.ld_unit_zero (S := S4000x64) offsets_zero, View.ld_unit_zero (S := S4000x1) offsets_zero,
    View.ld_unit_zero (S := S1x64) offsets_zero]
  rw [block_value]
  funext j
  exact block_read (V c (Pipeline.arrRef spec2 0)) (V c (Pipeline.arrRef spec2 1)) (V c (Pipeline.arrRef spec2 2))
    (V c (Pipeline.arrRef spec2 3)) t j

/-- THE ARRAY AFTER THE REGION: `G2` of the arrays as the region finds them, at every index. -/
theorem region2_value (c : Dev nD) :
    (dat2 (F := Ideal) V c).arrAt 4 cfg2.N
      = G2 (V c (Pipeline.arrRef spec2 0)) (V c (Pipeline.arrRef spec2 1)) (V c (Pipeline.arrRef spec2 2))
          (V c (Pipeline.arrRef spec2 3)) :=
  (dat2 (F := Ideal) V c).arrAt_eq_of_cover 4
    (G2 (V c (Pipeline.arrRef spec2 0)) (V c (Pipeline.arrRef spec2 1)) (V c (Pipeline.arrRef spec2 2))
      (V c (Pipeline.arrRef spec2 3)))
    (fun t _ => flushed_eq V c t) covered

end Cert.KernelIdeal.RegionValue

end
-- ==== Proof.KValue.lean ====
/-
  The idealized kernel's result array as one composed term of its arguments.

  The run's buffer contents are known at every boundary between a stretch of host operations and a region; walking from
  the launch to the return, each buffer that is read later is identified with a pure function of the argument arrays:
  the edge list's two rows, the normalisation column, the first region's scaled features `x W1` times `dis`, their
  aggregation over the edges, the second region's scaled features, their aggregation, and the third region's result.
-/
import proofs.«171371_j15762529976715_2_alg».proof.Proof.KHost
import proofs.«171371_j15762529976715_2_alg».proof.Proof.Region0Value
import proofs.«171371_j15762529976715_2_alg».proof.Proof.Region1Value
import proofs.«171371_j15762529976715_2_alg».proof.Proof.Region2Value

set_option maxRecDepth 16384

noncomputable section

namespace Cert.KernelIdeal.KernelValue

open Cert.KernelIdeal Cert.KernelIdeal.Gen Cert.KernelIdeal.HostValue Idealize.ShloMosaic Idealize.ShloMosaic.TcCoe Idealize.SL.Sem
  Idealize.ShloMosaic.StableHlo

/-! ## The composed term -/

section Term
variable (x : (⟨S100000x512, .f32⟩ : BufTy).Contents (Elt Ideal)) (ei : (⟨S2x3200000, .i32⟩ : BufTy).Contents (Elt Ideal)) (W1 : (⟨S512x16, .f32⟩ : BufTy).Contents (Elt Ideal))
  (b1 : (⟨S16, .f32⟩ : BufTy).Contents (Elt Ideal)) (W2 : (⟨S16x64, .f32⟩ : BufTy).Contents (Elt Ideal)) (b2 : (⟨S64, .f32⟩ : BufTy).Contents (Elt Ideal))

/-- The normalisation factor of every node. -/
def disT : (⟨S100000, .f32⟩ : BufTy).Contents (Elt Ideal) :=
  disK (F := Ideal) (posK (F := Ideal) (colK (F := Ideal) ei)) (rsK (F := Ideal) (colK (F := Ideal) ei)) (constant (F := Ideal) S_ .f32 0x00000000#32)
/-- The first region's output: `x W1` scaled by the node's factor. -/
def sh1T : (⟨S100000x16, .f32⟩ : BufTy).Contents (Elt Ideal) := Region0.G0 x W1 (dis2d (F := Ideal) (disT ei))
/-- The second region's output. -/
def sh2T : (⟨S100000x64, .f32⟩ : BufTy).Contents (Elt Ideal) :=
  Region1.G1 (agg16 (F := Ideal) (rowK (F := Ideal) ei) (colK (F := Ideal) ei) (sh1T x ei W1)) (sh1T x ei W1) (dis2d (F := Ideal) (disT ei))
    (shapeCast S1x16 b1 shapeCasts_S16_S1x16) W2
/-- The third region's output: the kernel's result. -/
def outT : (⟨S100000x64, .f32⟩ : BufTy).Contents (Elt Ideal) :=
  RegionValue.G2 (agg64 (F := Ideal) (rowK (F := Ideal) ei) (colK (F := Ideal) ei) (sh2T x ei W1 b1 W2)) (sh2T x ei W1 b1 W2) (dis2d (F := Ideal) (disT ei))
    (shapeCast S1x64 b2 shapeCasts_S64_S1x64)
end Term

variable (m : (ℓ : Loc nD τ sig) → Buf (Elt Ideal) ℓ) (ρ : Dev nD → PrngReg) (c : Dev nD)

/-! ## At the first region's entry -/

theorem W3_v1 : W3 m ρ c (Proc.devRef .tc main_v1) = rowK (F := Ideal) (m ((c : Thread nD τ).loc main_arg1)) := by
  show after hostOps0_2 (after hostOps0_1 (after hostOps0 (W0 m ρ c))) (Proc.devRef .tc main_v1) = _
  rw [h02_v1, h01_v1, h0_v1] <;> try rfl
theorem W3_v3 : W3 m ρ c (Proc.devRef .tc main_v3) = colK (F := Ideal) (m ((c : Thread nD τ).loc main_arg1)) := by
  show after hostOps0_2 (after hostOps0_1 (after hostOps0 (W0 m ρ c))) (Proc.devRef .tc main_v3) = _
  rw [h02_v3, h01_v3, h0_v3] <;> try rfl
theorem W3_v16 : W3 m ρ c (Proc.devRef .tc main_v16) = dis2d (F := Ideal) (disT (m ((c : Thread nD τ).loc main_arg1))) := by
  show after hostOps0_2 (after hostOps0_1 (after hostOps0 (W0 m ρ c))) (Proc.devRef .tc main_v16) = _
  rw [h02_v16, h01_v15, h0_v11, h0_v14, h0_cst4] <;> try rfl
theorem W3_arg0 : W3 m ρ c (Proc.devRef .tc main_arg0) = (m ((c : Thread nD τ).loc main_arg0)) := by
  show after hostOps0_2 (after hostOps0_1 (after hostOps0 (W0 m ρ c))) (Proc.devRef .tc main_arg0) = _
  rw [h02_arg0, h01_arg0, h0_arg0] <;> try rfl
theorem W3_arg2 : W3 m ρ c (Proc.devRef .tc main_arg2) = (m ((c : Thread nD τ).loc main_arg2)) := by
  show after hostOps0_2 (after hostOps0_1 (after hostOps0 (W0 m ρ c))) (Proc.devRef .tc main_arg2) = _
  rw [h02_arg2, h01_arg2, h0_arg2] <;> try rfl
theorem W3_arg3 : W3 m ρ c (Proc.devRef .tc main_arg3) = (m ((c : Thread nD τ).loc main_arg3)) := by
  show after hostOps0_2 (after hostOps0_1 (after hostOps0 (W0 m ρ c))) (Proc.devRef .tc main_arg3) = _
  rw [h02_arg3, h01_arg3, h0_arg3] <;> try rfl
theorem W3_arg4 : W3 m ρ c (Proc.devRef .tc main_arg4) = (m ((c : Thread nD τ).loc main_arg4)) := by
  show after hostOps0_2 (after hostOps0_1 (after hostOps0 (W0 m ρ c))) (Proc.devRef .tc main_arg4) = _
  rw [h02_arg4, h01_arg4, h0_arg4] <;> try rfl
theorem W3_arg5 : W3 m ρ c (Proc.devRef .tc main_arg5) = (m ((c : Thread nD τ).loc main_arg5)) := by
  show after hostOps0_2 (after hostOps0_1 (after hostOps0 (W0 m ρ c))) (Proc.devRef .tc main_arg5) = _
  rw [h02_arg5, h01_arg5, h0_arg5] <;> try rfl

/-! ## After the first region -/

theorem W4_v17 : W4 m ρ c (Proc.devRef .tc main_v17) = sh1T (m ((c : Thread nD τ).loc main_arg0)) (m ((c : Thread nD τ).loc main_arg1)) (m ((c : Thread nD τ).loc main_arg2)) := by
  refine (W4_arr m ρ c 3).trans ((Region0.region0_value (V3 m ρ) c).trans ?_)
  show Region0.G0 (W3 m ρ c (Proc.devRef .tc main_arg0)) (W3 m ρ c (Proc.devRef .tc main_arg2)) (W3 m ρ c (Proc.devRef .tc main_v16)) = _
  rw [W3_arg0, W3_arg2, W3_v16] <;> try rfl
theorem W4_v1 : W4 m ρ c (Proc.devRef .tc main_v1) = rowK (F := Ideal) (m ((c : Thread nD τ).loc main_arg1)) :=
  (W4_of_ne m ρ c main_v1 (by decide)).trans (W3_v1 m ρ c)
theorem W4_v3 : W4 m ρ c (Proc.devRef .tc main_v3) = colK (F := Ideal) (m ((c : Thread nD τ).loc main_arg1)) :=
  (W4_of_ne m ρ c main_v3 (by decide)).trans (W3_v3 m ρ c)
theorem W4_v16 : W4 m ρ c (Proc.devRef .tc main_v16) = dis2d (F := Ideal) (disT (m ((c : Thread nD τ).loc main_arg1))) :=
  ((W4_arr m ρ c 2).trans (((dat0 (V3 m ρ) c).arrAt_in 2 rfl _).trans (A_eq0 (V3 m ρ) c 2))).trans (W3_v16 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ## At the second region's entry -/

theorem W5_v27 : W5 m ρ c (Proc.devRef .tc main_v27)
    = agg16 (F := Ideal) (rowK (F := Ideal) (m ((c : Thread nD τ).loc main_arg1))) (colK (F := Ideal) (m ((c : Thread nD τ).loc main_arg1))) (sh1T (m ((c : Thread nD τ).loc main_arg0)) (m ((c : Thread nD τ).loc main_arg1)) (m ((c : Thread nD τ).loc main_arg2))) := by
  show after hostOps1 (W4 m ρ c) (Proc.devRef .tc main_v27) = _
  rw [h1_v27, W4_v1, W4_v3, W4_v17]
theorem W5_v28 : W5 m ρ c (Proc.devRef .tc main_v28) = shapeCast S1x16 (m ((c : Thread nD τ).loc main_arg3)) shapeCasts_S16_S1x16 := by
  show after hostOps1 (W4 m ρ c) (Proc.devRef .tc main_v28) = _
  rw [h1_v28, W4_arg3]
theorem W5_v17 : W5 m ρ c (Proc.devRef .tc main_v17) = sh1T (m ((c : Thread nD τ).loc main_arg0)) (m ((c : Thread nD τ).loc main_arg1)) (m ((c : Thread nD τ).loc main_arg2)) := by
  show after hostOps1 (W4 m ρ c) (Proc.devRef .tc main_v17) = _
  rw [h1_v17, W4_v17]
theorem W5_v16 : W5 m ρ c (Proc.devRef .tc main_v16) = dis2d (F := Ideal) (disT (m ((c : Thread nD τ).loc main_arg1))) := by
  show after hostOps1 (W4 m ρ c) (Proc.devRef .tc main_v16) = _
  rw [h1_v16, W4_v16]
theorem W5_v1 : W5 m ρ c (Proc.devRef .tc main_v1) = rowK (F := Ideal) (m ((c : Thread nD τ).loc main_arg1)) := by
  show after hostOps1 (W4 m ρ c) (Proc.devRef .tc main_v1) = _
  rw [h1_v1, W4_v1]
theorem W5_v3 : W5 m ρ c (Proc.devRef .tc main_v3) = colK (F := Ideal) (m ((c : Thread nD τ).loc main_arg1)) := by
  show after hostOps1 (W4 m ρ c) (Proc.devRef .tc main_v3) = _
  rw [h1_v3, W4_v3]
theorem W5_arg4 : W5 m ρ c (Proc.devRef .tc main_arg4) = (m ((c : Thread nD τ).loc main_arg4)) := by
  show after hostOps1 (W4 m ρ c) (Proc.devRef .tc main_arg4) = _
  rw [h1_arg4, W4_arg4]
theorem W5_arg5 : W5 m ρ c (Proc.devRef .tc main_arg5) = (m ((c : Thread nD τ).loc main_arg5)) := by
  show after hostOps1 (W4 m ρ c) (Proc.devRef .tc main_arg5) = _
  rw [h1_arg5, W4_arg5]

/-! ## After the second region -/

theorem W6_v29 : W6 m ρ c (Proc.devRef .tc main_v29)
    = sh2T (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 5).trans ((Region1.region1_value (V5 m ρ) c).trans ?_)
  show Region1.G1 (W5 m ρ c (Proc.devRef .tc main_v27)) (W5 m ρ c (Proc.devRef .tc main_v17)) (W5 m ρ c (Proc.devRef .tc main_v16)) (W5 m ρ c (Proc.devRef .tc main_v28)) (W5 m ρ c (Proc.devRef .tc main_arg4)) = _
  rw [W5_v27, W5_v17, W5_v16, W5_v28, W5_arg4] <;> try rfl
theorem W6_v1 : W6 m ρ c (Proc.devRef .tc main_v1) = rowK (F := Ideal) (m ((c : Thread nD τ).loc main_arg1)) :=
  (W6_of_ne m ρ c main_v1 (by decide)).trans (W5_v1 m ρ c)
theorem W6_v3 : W6 m ρ c (Proc.devRef .tc main_v3) = colK (F := Ideal) (m ((c : Thread nD τ).loc main_arg1)) :=
  (W6_of_ne m ρ c main_v3 (by decide)).trans (W5_v3 m ρ c)
theorem W6_v16 : W6 m ρ c (Proc.devRef .tc main_v16) = dis2d (F := Ideal) (disT (m ((c : Thread nD τ).loc main_arg1))) :=
  ((W6_arr m ρ c 2).trans (((dat1 (V5 m ρ) c).arrAt_in 2 rfl _).trans (A_eq1 (V5 m ρ) c 2))).trans (W5_v16 m ρ c)
theorem W6_arg5 : W6 m ρ c (Proc.devRef .tc main_arg5) = (m ((c : Thread nD τ).loc main_arg5)) :=
  (W6_of_ne m ρ c main_arg5 (by decide)).trans (W5_arg5 m ρ c)

/-! ## At the third region's entry, and the result -/

theorem W7_v39 : W7 m ρ c (Proc.devRef .tc main_v39)
    = agg64 (F := Ideal) (rowK (F := Ideal) (m ((c : Thread nD τ).loc main_arg1))) (colK (F := Ideal) (m ((c : Thread nD τ).loc main_arg1)))
        (sh2T (m ((c : Thread nD τ).loc main_arg0)) (m ((c : Thread nD τ).loc main_arg1)) (m ((c : Thread nD τ).loc main_arg2)) (m ((c : Thread nD τ).loc main_arg3)) (m ((c : Thread nD τ).loc main_arg4))) := by
  show after hostOps2 (W6 m ρ c) (Proc.devRef .tc main_v39) = _
  rw [h2_v39, W6_v1, W6_v3, W6_v29]
theorem W7_v40 : W7 m ρ c (Proc.devRef .tc main_v40) = shapeCast S1x64 (m ((c : Thread nD τ).loc main_arg5)) shapeCasts_S64_S1x64 := by
  show after hostOps2 (W6 m ρ c) (Proc.devRef .tc main_v40) = _
  rw [h2_v40, W6_arg5]
theorem W7_v29 : W7 m ρ c (Proc.devRef .tc main_v29)
    = sh2T (m ((c : Thread nD τ).loc main_arg0)) (m ((c : Thread nD τ).loc main_arg1)) (m ((c : Thread nD τ).loc main_arg2)) (m ((c : Thread nD τ).loc main_arg3)) (m ((c : Thread nD τ).loc main_arg4)) := by
  show after hostOps2 (W6 m ρ c) (Proc.devRef .tc main_v29) = _
  rw [h2_v29, W6_v29]
theorem W7_v16 : W7 m ρ c (Proc.devRef .tc main_v16) = dis2d (F := Ideal) (disT (m ((c : Thread nD τ).loc main_arg1))) := by
  show after hostOps2 (W6 m ρ c) (Proc.devRef .tc main_v16) = _
  rw [h2_v16, W6_v16]

/-- THE RESULT: the result array after the last region is the composed term of the arguments. -/
theorem W8_v41 : W8 m ρ c (Proc.devRef .tc main_v41)
    = outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 4).trans ((RegionValue.region2_value (V7 m ρ) c).trans ?_)
  show RegionValue.G2 (W7 m ρ c (Proc.devRef .tc main_v39)) (W7 m ρ c (Proc.devRef .tc main_v29)) (W7 m ρ c (Proc.devRef .tc main_v16)) (W7 m ρ c (Proc.devRef .tc main_v40)) = _
  rw [W7_v39, W7_v29, W7_v16, W7_v40] <;> try rfl

end Cert.KernelIdeal.KernelValue

end
-- ==== Proof.Spec.lean ====
/-
  A two-layer graph convolution with symmetric normalisation, written twice as plain index-by-index functions.

  Nodes are `Fin 100000`, edges `Fin 3200000`; an edge has a source word `row e` and a target word `col e` (32-bit
  integers read signed). An edge LANDS on node `i` when its target word is `i`; it READS the node its source word selects
  (a negative word counts from the end, and the result is clamped into the node range). The degree of a node is the number
  of edges that land on it plus one for its self-loop, and `dis = 1/sqrt(deg)`.

  `outK` is the factored form: features are scaled by `dis` of their own node BEFORE they are gathered along the edges, the
  self-loop is added as the node's own scaled feature, and the sum is scaled by `dis` of the target afterwards.
  `outR` is the textbook form over the edge list EXTENDED by one self-loop per node (edges `Fin 3300000`): every message
  is the source's feature times `dis source * dis target`.
-/
import Idealize.ShloMosaic.Lib.ValueIdx
import Idealize.ShloMosaic.PureOps.Ideal

noncomputable section

namespace Cert.Spec

open Idealize.ShloMosaic

/-- The word `+0.0`. -/
abbrev zeroW : EReal := FloatOps.ofBits (F := Ideal) .f32 0x00000000#32
/-- The word `1.0`. -/
abbrev oneW : EReal := FloatOps.ofBits (F := Ideal) .f32 0x3F800000#32

/-- A gather index word with a negative word counted from the end. -/
def nrm (v : BitVec 32) : BitVec 32 := Scalar.select (IntOp.cmpi .slt v 0#32) (IntOp.addi v 100000#32) v
/-- The node a gather index word selects: read signed and clamped into the node range. -/
def src (v : BitVec 32) : Fin 100000 := ⟨min (nrm v).toInt.toNat 99999, by omega⟩

/-- The normalisation factor as a function of the degree: `1/sqrt(max deg 1)` where the degree is positive, else zero. -/
def disOf (deg : EReal) : EReal :=
  Scalar.select (FloatOps.cmpf (F := Ideal) (φ := .f32) .ogt deg zeroW)
    (FloatOps.hostUnary (F := Ideal) (φ := .f32) .rsqrt (FloatOps.maximumf (F := Ideal) (φ := .f32) deg oneW)) zeroW

/-! ## The factored form, over the edges alone -/

section K
variable (row col : Fin 3200000 → BitVec 32)

/-- A node's degree: the edges landing on it, plus one. -/
def degK (i : Fin 100000) : EReal :=
  (zeroW + ∑ e ∈ Finset.univ.filter (fun e : Fin 3200000 => (col e).toInt = (i.val : ℤ)), oneW) + oneW
def disK (i : Fin 100000) : EReal := disOf (degK col i)
/-- Rows of `sh` summed over incoming edges. -/
def aggK {C : Nat} (sh : Fin 100000 → Fin C → EReal) (i : Fin 100000) (k : Fin C) : EReal :=
  zeroW + ∑ e ∈ Finset.univ.filter (fun e : Fin 3200000 => (col e).toInt = (i.val : ℤ)), sh (src (row e)) k

variable (x : Fin 100000 → Fin 512 → EReal) (W1 : Fin 512 → Fin 16 → EReal) (b1 : Fin 16 → EReal)
  (W2 : Fin 16 → Fin 64 → EReal) (b2 : Fin 64 → EReal)

def sh1K (i : Fin 100000) (k : Fin 16) : EReal := (∑ j : Fin 512, x i j * W1 j k) * disK col i
def pre1K (i : Fin 100000) (k : Fin 16) : EReal :=
  disK col i * (aggK row col (sh1K col x W1) i k + sh1K col x W1 i k) + b1 k
def sh2K (i : Fin 100000) (c : Fin 64) : EReal :=
  (∑ k : Fin 16, max (pre1K row col x W1 b1 i k) zeroW * W2 k c) * disK col i
def outK (i : Fin 100000) (c : Fin 64) : EReal :=
  disK col i * (aggK row col (sh2K row col x W1 b1 W2) i c + sh2K row col x W1 b1 W2 i c) + b2 c
end K

/-! ## The textbook form, over the edges and one self-loop per node -/

/-- An index vector over the edges followed by the node numbers `0 … 99999`. -/
def catI (v : Fin 3200000 → BitVec 32) (e : Fin 3300000) : BitVec 32 :=
  if h : e.val < 3200000 then v ⟨e.val, h⟩ else BitVec.ofNat 32 (e.val - 3200000)

section R
variable (rowc colc : Fin 3300000 → BitVec 32)

def degR (i : Fin 100000) : EReal :=
  zeroW + ∑ e ∈ Finset.univ.filter (fun e : Fin 3300000 => (colc e).toInt = (i.val : ℤ)), oneW
def disR (i : Fin 100000) : EReal := disOf (degR colc i)
def normR (e : Fin 3300000) : EReal := disR colc (src (rowc e)) * disR colc (src (colc e))
/-- One convolution: the normalised messages summed at their targets, plus the bias. -/
def layR {C : Nat} (h : Fin 100000 → Fin C → EReal) (b : Fin C → EReal) (i : Fin 100000) (k : Fin C) : EReal :=
  (zeroW + ∑ e ∈ Finset.univ.filter (fun e : Fin 3300000 => (colc e).toInt = (i.val : ℤ)), h (src (rowc e)) k * normR rowc colc e) + b k

variable (x : Fin 100000 → Fin 512 → EReal) (W1 : Fin 512 → Fin 16 → EReal) (b1 : Fin 16 → EReal)
  (W2 : Fin 16 → Fin 64 → EReal) (b2 : Fin 64 → EReal)

def h1R (i : Fin 100000) (k : Fin 16) : EReal := ∑ j : Fin 512, x i j * W1 j k
def actR (i : Fin 100000) (k : Fin 16) : EReal := max (layR rowc colc (h1R x W1) b1 i k) zeroW
def h2R (i : Fin 100000) (c : Fin 64) : EReal := ∑ k : Fin 16, actR rowc colc x W1 b1 i k * W2 k c
def outR (i : Fin 100000) (c : Fin 64) : EReal := layR rowc colc (h2R rowc colc x W1 b1 W2) b2 i c
end R

end Cert.Spec

end
-- ==== Proof.Adapt.lean ====
/-
  Arrays over a shape's index type read as functions of their coordinates, and the two rows of the edge list.
-/
import Idealize.ShloMosaic.Lib.ValueIdx

namespace Cert.Adapt

open Idealize.ShloMosaic Idealize.ShloMosaic.ValueIdx

variable {α : Type}

/-- A rank-1 array as a function of its coordinate. -/
def cur1 {n : Nat} (a : (⟨1, ![n]⟩ : Shape).Idx → α) : Fin n → α := fun i => a (ix1 i)
/-- A rank-2 array as a function of its two coordinates. -/
def cur2 {n0 n1 : Nat} (a : (⟨2, ![n0, n1]⟩ : Shape).Idx → α) : Fin n0 → Fin n1 → α := fun i j => a (ix2 i j)

/-- The edges' source words: row 0 of the edge list. -/
def rowOf (ei : (⟨2, ![2, 3200000]⟩ : Shape).Idx → BitVec 32) : Fin 3200000 → BitVec 32 := fun e => ei (ix2 (0 : Fin 2) e)
/-- The edges' target words: row 1 of the edge list. -/
def colOf (ei : (⟨2, ![2, 3200000]⟩ : Shape).Idx → BitVec 32) : Fin 3200000 → BitVec 32 := fun e => ei (ix2 (1 : Fin 2) e)

end Cert.Adapt
-- ==== Proof.LibScatterRows.lean ====
/-
  Reading an accumulating scatter at an index.

  `x.at[idx].add(upd)` of a matrix `x : [N, C]` at an integer vector `idx : [E]` with updates `upd : [E, C]`
  (a segment sum of rows) lowers to a scatter whose body is an addition, with the scatter indices laid out as
  `[E, 1]`: update window axis 1, inserted window axis 0, the scatter-dims-to-operand-dims map `[0]`.
  Update element `(e, k)` lands on the operand's element `(r, k)`, where the row `r` is the scatter index
  `idx[e, 0]` read as a signed integer and NOT clamped: an update whose row is outside `[0, N - 1]` is dropped.
  So, over the extended reals, element `(i, k)` of the result is `x[i, k]` plus the sum of `upd[e, k]` over the
  edges `e` whose scatter index is exactly `i`. The same is shown for a vector operand `[N]` with updates `[E]`.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Any scatter -/

/-- An operand axis is kept exactly when it is not an inserted window axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- An update index lands on the operand index `r` exactly when, on every operand axis, the start (read signed)
    plus the window coordinate is `r`'s coordinate. -/
theorem resultIdx?_eq_some_iff {s si u : Shape} (d : ScatterDims s si u) {w : Nat} (j : u.Idx) (idx : IVec si w)
    (r : s.Idx) :
    d.resultIdx? j idx = some r ↔ ∀ a, d.start j idx a + (d.window j a : ℤ) = ((r a).val : ℤ) := by
  unfold ScatterDims.resultIdx?
  split
  · rename_i h
    rw [Option.some.injEq]
    constructor
    · intro hf a
      have hv : (d.start j idx a + (d.window j a : ℤ)).toNat = (r a).val := congrArg Fin.val (congrFun hf a)
      have hb := h a
      omega
    · intro hr
      funext a
      refine Fin.ext ?_
      have := hr a
      show (d.start j idx a + (d.window j a : ℤ)).toNat = (r a).val
      omega
  · rename_i h
    constructor
    · intro hf
      exact absurd hf (by simp)
    · intro hr
      refine absurd (fun a => ?_) h
      have := hr a
      have := (r a).isLt
      constructor <;> omega

/-! ## Rows of a matrix -/

/-- operand [N, C], scatter indices [E, 1], updates [E, C]: row e of the updates is added to row idx[e,0] of the operand -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window starts at the scatter index, read signed. -/
theorem rowDims_start_row {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowDims N E C wf).start (ix2 e k) idx (0 : Fin 2) = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e k) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the scatter-dims-to-operand-dims map does not name it. -/
theorem rowDims_start_col {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) :
    (rowDims N E C wf).start (ix2 e k) idx (1 : Fin 2) = 0 := by
  unfold ScatterDims.start
  rw [dif_neg (fun h => absurd (congrArg Fin.val (List.mem_singleton.mp h)) Nat.one_ne_zero)]

/-- The row axis is inserted: its window coordinate is zero. -/
theorem rowDims_window_row {N E C : Nat}
    (wf : ScatterDims.WF ⟨2, ![N, C]⟩ ⟨2, ![E, 1]⟩ ⟨2, ![E, C]⟩ [1] [0] [0] 1) (e : Fin E) (k : Fin C) :
    (rowDims N E C wf).window (ix2 e k) (0 : Fin 2) = 0 := by
  unfold ScatterDims.window
  rw [dif_neg (fun h => (mem_sKept _ _).mp h (List.mem_singleton.mpr rfl))]

/-- The window coordinate on the column axis is the update's column. -/
theorem rowDims_window_col {N E C : Nat}
    (wf : ScatterDims.WF ⟨2, ![N, C]⟩ ⟨2, ![E, 1]⟩ ⟨2, ![E, C]⟩ [1] [0] [0] 1) (e : Fin E) (k : Fin C) :
    (rowDims N E C wf).window (ix2 e k) (1 : Fin 2) = k.val := by
  unfold ScatterDims.window
  rw [dif_pos ((mem_sKept _ _).mpr
    (fun h => absurd (congrArg Fin.val (List.mem_singleton.mp h)) Nat.one_ne_zero))]
  rfl

/-- Update element `(e, k)` lands on operand element `(i, k')` exactly when the scatter index of `e` is `i` and
    the columns agree. -/
theorem rowDims_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k k' : Fin C) (i : Fin N) :
    (rowDims N E C wf).resultIdx? (ix2 e k) idx = some (ix2 i k')
      ↔ (idx (ix2 e (0 : Fin 1))).toInt = (i.val : ℤ) ∧ k = k' := by
  rw [resultIdx?_eq_some_iff]
  constructor
  · intro h
    have a0 : (rowDims N E C wf).start (ix2 e k) idx (0 : Fin 2)
        + ((rowDims N E C wf).window (ix2 e k) (0 : Fin 2) : ℤ) = (i.val : ℤ) := h (0 : Fin 2)
    have a1 : (rowDims N E C wf).start (ix2 e k) idx (1 : Fin 2)
        + ((rowDims N E C wf).window (ix2 e k) (1 : Fin 2) : ℤ) = (k'.val : ℤ) := h (1 : Fin 2)
    rw [rowDims_start_row, rowDims_window_row] at a0
    rw [rowDims_start_col, rowDims_window_col] at a1
    exact ⟨by omega, Fin.ext (by omega)⟩
  · rintro ⟨hi, hk⟩ a
    match a with
    | ⟨0, _⟩ =>
      show (rowDims N E C wf).start (ix2 e k) idx (0 : Fin 2)
        + ((rowDims N E C wf).window (ix2 e k) (0 : Fin 2) : ℤ) = (i.val : ℤ)
      rw [rowDims_start_row, rowDims_window_row, hi]
      omega
    | ⟨1, _⟩ =>
      show (rowDims N E C wf).start (ix2 e k) idx (1 : Fin 2)
        + ((rowDims N E C wf).window (ix2 e k) (1 : Fin 2) : ℤ) = (k'.val : ℤ)
      rw [rowDims_start_col, rowDims_window_col, hk]
      omega

/-- THE ROW SCATTER-ADD READ AT `(i, k)`: the operand's element plus the updates' elements `(e, k)` over the
    edges `e` whose scatter index is `i`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (i : Fin N) (k : Fin C) :
    Host.scatterAdd (F := Ideal) (rowDims N E C wf) x idx upd (ix2 i k)
      = x (ix2 i k) + ∑ e ∈ Finset.univ.filter (fun e : Fin E => (idx (ix2 e (0 : Fin 1))).toInt = (i.val : ℤ)),
          upd (ix2 e k) := by
  have key : ∀ j : (⟨2, ![E, C]⟩ : Shape).Idx, (rowDims N E C wf).resultIdx? j idx = some (ix2 i k) →
      (idx (ix2 (n0 := E) (j 0) (0 : Fin 1))).toInt = (i.val : ℤ) ∧ (j 1 : Fin C) = k := by
    intro j h
    rw [eq_ix2 (n0 := E) (n1 := C) j] at h
    exact (rowDims_resultIdx?_eq_some_iff wf idx _ _ _ _).mp h
  unfold Host.scatterAdd
  rw [Ideal.hostScatterAdd_def]
  unfold Ideal.hostScatterAdd
  congr 1
  refine Finset.sum_nbij' (fun j => (j 0 : Fin E)) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowDims_resultIdx?_eq_some_iff wf idx e k k i).mpr ⟨(Finset.mem_filter.mp he).2, rfl⟩⟩
  · intro j hj
    have h2 := (key j (Finset.mem_filter.mp hj).2).2
    show ix2 (n0 := E) (n1 := C) (j 0) k = j
    rw [← h2]
    exact (eq_ix2 (n0 := E) (n1 := C) j).symm
  · intro e _
    rfl
  · intro j hj
    have h2 := (key j (Finset.mem_filter.mp hj).2).2
    have hjk : ix2 (n0 := E) (n1 := C) (j 0) k = j := by
      rw [← h2]
      exact (eq_ix2 (n0 := E) (n1 := C) j).symm
    exact (congrArg upd hjk).symm

/-! ## A vector -/

/-- operand [N], scatter indices [E, 1], updates [E]: update e is added to element idx[e,0] of the operand -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the operand's one axis the window starts at the scatter index, read signed. -/
theorem vecDims_start {N E w : Nat} (wf : ScatterDims.WF ⟨1, ![N]⟩ ⟨2, ![E, 1]⟩ ⟨1, ![E]⟩ [] [0] [0] 1)
    (idx : IVec ⟨2, ![E, 1]⟩ w) (e : Fin E) :
    (vecDims N E wf).start (ix1 e) idx (0 : Fin 1) = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: its window coordinate is zero. -/
theorem vecDims_window {N E : Nat} (wf : ScatterDims.WF ⟨1, ![N]⟩ ⟨2, ![E, 1]⟩ ⟨1, ![E]⟩ [] [0] [0] 1) (e : Fin E) :
    (vecDims N E wf).window (ix1 e) (0 : Fin 1) = 0 := by
  unfold ScatterDims.window
  rw [dif_neg (fun h => (mem_sKept _ _).mp h (List.mem_singleton.mpr rfl))]

/-- Update element `e` lands on operand element `i` exactly when the scatter index of `e` is `i`. -/
theorem vecDims_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (i : Fin N) :
    (vecDims N E wf).resultIdx? (ix1 e) idx = some (ix1 i) ↔ (idx (ix2 e (0 : Fin 1))).toInt = (i.val : ℤ) := by
  rw [resultIdx?_eq_some_iff]
  constructor
  · intro h
    have a0 : (vecDims N E wf).start (ix1 e) idx (0 : Fin 1)
        + ((vecDims N E wf).window (ix1 e) (0 : Fin 1) : ℤ) = (i.val : ℤ) := h (0 : Fin 1)
    rw [vecDims_start, vecDims_window] at a0
    omega
  · intro hi a
    match a with
    | ⟨0, _⟩ =>
      show (vecDims N E wf).start (ix1 e) idx (0 : Fin 1)
        + ((vecDims N E wf).window (ix1 e) (0 : Fin 1) : ℤ) = (i.val : ℤ)
      rw [vecDims_start, vecDims_window, hi]
      omega

/-- THE VECTOR SCATTER-ADD READ AT `i`: the operand's element plus the updates' elements `e` over the edges `e`
    whose scatter index is `i`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : Fin N) :
    Host.scatterAdd (F := Ideal) (vecDims N E wf) x idx upd (ix1 i)
      = x (ix1 i) + ∑ e ∈ Finset.univ.filter (fun e : Fin E => (idx (ix2 e (0 : Fin 1))).toInt = (i.val : ℤ)),
          upd (ix1 e) := by
  have key : ∀ j : (⟨1, ![E]⟩ : Shape).Idx, (vecDims N E wf).resultIdx? j idx = some (ix1 i) →
      (idx (ix2 (n0 := E) (j 0) (0 : Fin 1))).toInt = (i.val : ℤ) := by
    intro j h
    rw [eq_ix1 (n := E) j] at h
    exact (vecDims_resultIdx?_eq_some_iff wf idx _ _).mp h
  unfold Host.scatterAdd
  rw [Ideal.hostScatterAdd_def]
  unfold Ideal.hostScatterAdd
  congr 1
  refine Finset.sum_nbij' (fun j => (j 0 : Fin E)) (fun e => ix1 e) ?_ ?_ ?_ ?_ ?_
  · intro j hj
    exact Finset.mem_filter.mpr ⟨Finset.mem_univ _, key j (Finset.mem_filter.mp hj).2⟩
  · intro e he
    exact Finset.mem_filter.mpr ⟨Finset.mem_univ _,
      (vecDims_resultIdx?_eq_some_iff wf idx e i).mpr (Finset.mem_filter.mp he).2⟩
  · intro j _
    exact (eq_ix1 (n := E) j).symm
  · intro e _
    rfl
  · intro j _
    exact congrArg upd (eq_ix1 (n := E) j)

end Idealize.ShloMosaic.ScatterRows

end
-- ==== Proof.LibGatherRows.lean ====
/-
  Reading a row gather at an index.

  `x[idx]` of a matrix `x : [N, C]` at an integer vector `idx : [E]` lowers to a gather with the start indices
  laid out as `[E, 1]`: offset axis 1, collapsed axis 0, the start index map `[0]`, slices of one whole row.
  The element `(e, k)` of the result is the operand's element `(r, k)`, where the row `r` is the start index
  `idx[e, 0]` read as a signed integer and clamped into `[0, N - 1]`. In particular the row depends on `e` only and
  the column is kept, which is what a row-wise reduction of gathered rows needs.
-/
import Idealize.ShloMosaic.Lib.ValueIdx

noncomputable section

namespace Idealize.ShloMosaic.GatherRows

open Idealize.ShloMosaic Idealize.ShloMosaic.ValueIdx

variable {α : Type}

/-- The dimension numbers of a row gather: operand `[N, C]`, start indices `[E, 1]`, result `[E, C]`. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that edge `e` selects: its start index read signed, clamped into `[0, N - 1]`. -/
def rowOf {N E w : Nat} (hN : 0 < N) (idx : IVec ⟨2, ![E, 1]⟩ w) (e : Fin E) : Fin N :=
  ⟨min (idx (ix2 e (0 : Fin 1))).toInt.toNat (N - 1), by omega⟩

/-- On the row axis the slice starts at the clamped start index. -/
theorem rowDims_start_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).start (ix2 e k) idx (0 : Fin 2) = min (idx (ix2 e (0 : Fin 1))).toInt.toNat (N - 1) := by
  unfold GatherDims.start
  rw [dif_pos (show (0 : Fin 2) ∈ (rowDims N E C wf).startIndexMap from List.mem_singleton.mpr rfl)]
  have hsi : (rowDims N E C wf).siIdx (ix2 e k) ⟨List.idxOf (0 : Fin 2) (rowDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the slice starts at zero: the start index map does not name it. -/
theorem rowDims_start_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).start (ix2 e k) idx (1 : Fin 2) = 0 := by
  unfold GatherDims.start
  rw [dif_neg (fun h => absurd (congrArg Fin.val (List.mem_singleton.mp h)) Nat.one_ne_zero)]

/-- The offset coordinate on the column axis is the result's column. -/
theorem rowDims_off_col {N E C : Nat}
    (wf : GatherDims.WF ⟨2, ![N, C]⟩ ⟨2, ![E, 1]⟩ ⟨2, ![E, C]⟩ [1] [0] [] [0] [] 1 ![1, C])
    (e : Fin E) (k : Fin C) :
    (rowDims N E C wf).offCoord (ix2 e k) (1 : Fin 2) = k.val := by
  unfold GatherDims.offCoord
  rw [dif_pos ((GatherDims.mem_sKept _ _).mpr ⟨fun h => absurd (congrArg Fin.val (List.mem_singleton.mp h)) Nat.one_ne_zero, List.not_mem_nil⟩)]
  rfl

/-- The operand index of result element `(e, k)` is `(rowOf e, k)`. -/
theorem rowDims_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (k : Fin C) :
    (rowDims N E C wf).operandIdx (ix2 e k) idx = ix2 (rowOf hN idx e) k := by
  funext a
  refine Fin.ext ?_
  match a with
  | ⟨0, _⟩ =>
    show (rowDims N E C wf).start (ix2 e k) idx (0 : Fin 2) + (rowDims N E C wf).batchCoord (ix2 e k) (0 : Fin 2)
      + (rowDims N E C wf).offCoord (ix2 e k) (0 : Fin 2) = min (idx (ix2 e (0 : Fin 1))).toInt.toNat (N - 1)
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero, rowDims_start_row]
  | ⟨1, _⟩ =>
    show (rowDims N E C wf).start (ix2 e k) idx (1 : Fin 2) + (rowDims N E C wf).batchCoord (ix2 e k) (1 : Fin 2)
      + (rowDims N E C wf).offCoord (ix2 e k) (1 : Fin 2) = k.val
    rw [GatherDims.batchCoord_eq_zero _ _ _ List.not_mem_nil, Nat.add_zero, rowDims_start_col, Nat.zero_add,
      rowDims_off_col]

/-- THE ROW GATHER READ AT `(e, k)`: the operand's element `(rowOf e, k)`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N E C wf) x idx (ix2 e k) = x (ix2 (rowOf hN idx e) k) := by
  unfold Host.gather
  rw [rowDims_operandIdx hN wf idx e k]

end Idealize.ShloMosaic.GatherRows

end
-- ==== Proof.KIndex.lean ====
/-
  The kernel's host-side functions read at an index, at the ideal instance.

  Each lemma says what one entry of a host-side array is in terms of the entries of the arrays it is computed from: the
  scatter and gather index columns are the target and source words, the degree is the count of landing edges plus one, the
  normalisation factor is the degree's function `Spec.disOf`, and an aggregation's entry `(i, k)` is the sum, over the edges
  landing on node `i`, of entry `k` of the row their source word selects.
-/
import proofs.«171371_j15762529976715_2_alg».proof.Proof.KHost
import proofs.«171371_j15762529976715_2_alg».proof.Proof.Spec
import proofs.«171371_j15762529976715_2_alg».proof.Proof.Adapt
import proofs.«171371_j15762529976715_2_alg».proof.Proof.LibScatterRows
import proofs.«171371_j15762529976715_2_alg».proof.Proof.LibGatherRows
import Idealize.ShloMosaic.Lib.Pipeline.Value
import Idealize.ShloMosaic.Lib.ValueIdx

set_option maxRecDepth 16384

noncomputable section

namespace Cert.KernelIdeal.HostIndex

open Cert.KernelIdeal Cert.KernelIdeal.Gen Cert.KernelIdeal.HostValue Idealize.ShloMosaic Idealize.ShloMosaic.ValueIdx Cert.Adapt

/-- A broadcast of a scalar constant reads the constant's word at every index. -/
theorem bcast_const_apply {t : Shape} (h : S_.BroadcastsInDim t (![] : Fin 0 → Fin t.rank)) (w : BitVec 32) (j : t.Idx) :
    broadcastInDim t ![] h (constant (F := Ideal) S_ .f32 w) j = FloatOps.ofBits (F := Ideal) .f32 w := rfl

/-- An inverse square root and a maximum of arrays, at an index. -/
theorem hostRsqrt_apply {s : Shape} (x : FVec Ideal s .f32) (j : s.Idx) :
    Host.rsqrt x j = FloatOps.hostUnary (F := Ideal) .rsqrt (x j) := rfl
theorem maximumf_apply' {s : Shape} (a b : FVec Ideal s .f32) (j : s.Idx) :
    maximumf a b j = FloatOps.maximumf (F := Ideal) (a j) (b j) := rfl

/-- The printed dimension records are the general ones at this program's sizes. -/
theorem scat_vec_eq : scatter_S100000_S3200000x1_S3200000_n_0_0_1
    = ScatterRows.vecDims 100000 3200000 scatter_S100000_S3200000x1_S3200000_n_0_0_1_wf := rfl
theorem scat_rows16_eq : scatter_S100000x16_S3200000x1_S3200000x16_1_0_0_1
    = ScatterRows.rowDims 100000 3200000 16 scatter_S100000x16_S3200000x1_S3200000x16_1_0_0_1_wf := rfl
theorem scat_rows64_eq : scatter_S100000x64_S3200000x1_S3200000x64_1_0_0_1
    = ScatterRows.rowDims 100000 3200000 64 scatter_S100000x64_S3200000x1_S3200000x64_1_0_0_1_wf := rfl
theorem gath_rows16_eq : gather_S100000x16_S3200000x1_S3200000x16_1_0_n_n_0_1_116
    = GatherRows.rowDims 100000 3200000 16 gather_S100000x16_S3200000x1_S3200000x16_1_0_n_n_0_1_116_wf := rfl
theorem gath_rows64_eq : gather_S100000x64_S3200000x1_S3200000x64_1_0_n_n_0_1_164
    = GatherRows.rowDims 100000 3200000 64 gather_S100000x64_S3200000x1_S3200000x64_1_0_n_n_0_1_164_wf := rfl

/-- The scatter index of edge `e` is its target word. -/
theorem dstIdx_apply (col : (⟨S3200000, .i32⟩ : BufTy).Contents (Elt Ideal)) (e : Fin 3200000) :
    dstIdx (F := Ideal) col (ix2 e (0 : Fin 1)) = col (ix1 e) := by
  unfold dstIdx
  exact broadcastInDim_apply _ bcast_S3200000_S3200000x1_0 col (ix2 e (0 : Fin 1)) (ix1 e) (fun a => match a with
    | ⟨0, _⟩ => by show e.val = if (3200000 : Nat) = 1 then 0 else e.val; rw [if_neg (by decide)])

/-- The gather index of edge `e` is its source word, a negative word counted from the end. -/
theorem srcIdx_apply (row : (⟨S3200000, .i32⟩ : BufTy).Contents (Elt Ideal)) (e : Fin 3200000) :
    srcIdx (F := Ideal) row (ix2 e (0 : Fin 1)) = Spec.nrm (row (ix1 e)) := by
  unfold srcIdx
  rw [broadcastInDim_apply _ bcast_S3200000_S3200000x1_0 _ (ix2 e (0 : Fin 1)) (ix1 e) (fun a => match a with
    | ⟨0, _⟩ => by show e.val = if (3200000 : Nat) = 1 then 0 else e.val; rw [if_neg (by decide)])]
  rfl

/-- The row a gather selects for edge `e`. -/
theorem rowOf_srcIdx (row : (⟨S3200000, .i32⟩ : BufTy).Contents (Elt Ideal)) (e : Fin 3200000) :
    GatherRows.rowOf (N := 100000) (by decide) (srcIdx (F := Ideal) row) e = Spec.src (row (ix1 e)) := by
  apply Fin.ext
  show min (srcIdx (F := Ideal) row (ix2 e (0 : Fin 1))).toInt.toNat (100000 - 1) = min (Spec.nrm (row (ix1 e))).toInt.toNat 99999
  rw [srcIdx_apply]

/-- A node's degree is the number of edges landing on it, plus one. -/
theorem degK_apply (col : (⟨S3200000, .i32⟩ : BufTy).Contents (Elt Ideal)) (i : Fin 100000) :
    degK (F := Ideal) col (ix1 i) = Spec.degK (cur1 col) i := by
  unfold degK Spec.degK
  rw [addf_apply, scat_vec_eq, ScatterRows.scatterAdd_vec_apply]
  simp only [dstIdx_apply, bcast_const_apply]
  rfl

/-- The normalisation factor of a node is `Spec.disOf` of its degree. -/
theorem disK_apply (col : (⟨S3200000, .i32⟩ : BufTy).Contents (Elt Ideal)) (i : Fin 100000) :
    disK (F := Ideal) (posK (F := Ideal) col) (rsK (F := Ideal) col) (constant (F := Ideal) S_ .f32 0x00000000#32) (ix1 i)
      = Spec.disK (cur1 col) i := by
  unfold disK posK rsK Spec.disK Spec.disOf
  rw [select_apply, cmpf_apply, hostRsqrt_apply, maximumf_apply']
  simp only [id_eq, degK_apply]
  rfl

/-- The factor as a column, at row `i`. -/
theorem dis2d_apply (d : (⟨S100000, .f32⟩ : BufTy).Contents (Elt Ideal)) (i : Fin 100000) :
    dis2d (F := Ideal) d (ix2 i (0 : Fin 1)) = d (ix1 i) := by
  unfold dis2d
  exact shapeCast_apply d shapeCasts_S100000_S100000x1 (ix2 i (0 : Fin 1)) (ix1 i)
    (by rw [Shape.rowMajor_val_two, Shape.rowMajor_val_one]; show i.val = i.val * 1 + 0; omega)

/-- The bias of the first layer as a row, at column `k`. -/
theorem bias16_apply (b : (⟨S16, .f32⟩ : BufTy).Contents (Elt Ideal)) (k : Fin 16) :
    shapeCast S1x16 b shapeCasts_S16_S1x16 (ix2 (0 : Fin 1) k) = b (ix1 k) :=
  shapeCast_apply b shapeCasts_S16_S1x16 (ix2 (0 : Fin 1) k) (ix1 k)
    (by rw [Shape.rowMajor_val_two, Shape.rowMajor_val_one]; show k.val = 0 * 16 + k.val; omega)
/-- The bias of the second layer as a row, at column `c`. -/
theorem bias64_apply (b : (⟨S64, .f32⟩ : BufTy).Contents (Elt Ideal)) (c : Fin 64) :
    shapeCast S1x64 b shapeCasts_S64_S1x64 (ix2 (0 : Fin 1) c) = b (ix1 c) :=
  shapeCast_apply b shapeCasts_S64_S1x64 (ix2 (0 : Fin 1) c) (ix1 c)
    (by rw [Shape.rowMajor_val_two, Shape.rowMajor_val_one]; show c.val = 0 * 64 + c.val; omega)

/-- Sixteen-wide aggregation at `(i, k)`: the sum over the edges landing on `i` of entry `k` of their source's row. -/
theorem agg16_apply (row col : (⟨S3200000, .i32⟩ : BufTy).Contents (Elt Ideal)) (sh : (⟨S100000x16, .f32⟩ : BufTy).Contents (Elt Ideal)) (i : Fin 100000) (k : Fin 16) :
    agg16 (F := Ideal) row col sh (ix2 i k) = Spec.aggK (cur1 row) (cur1 col) (cur2 sh) i k := by
  unfold agg16 Spec.aggK
  rw [scat_rows16_eq, ScatterRows.scatterAdd_rows_apply]
  simp only [dstIdx_apply, bcast_const_apply]
  refine congrArg (fun y => Spec.zeroW + y) (Finset.sum_congr rfl fun e _ => ?_)
  rw [gath_rows16_eq, GatherRows.gather_rows_apply (by decide), rowOf_srcIdx]
  rfl

/-- Sixty-four-wide aggregation at `(i, c)`. -/
theorem agg64_apply (row col : (⟨S3200000, .i32⟩ : BufTy).Contents (Elt Ideal)) (sh : (⟨S100000x64, .f32⟩ : BufTy).Contents (Elt Ideal)) (i : Fin 100000) (c : Fin 64) :
    agg64 (F := Ideal) row col sh (ix2 i c) = Spec.aggK (cur1 row) (cur1 col) (cur2 sh) i c := by
  unfold agg64 Spec.aggK
  rw [scat_rows64_eq, ScatterRows.scatterAdd_rows_apply]
  simp only [dstIdx_apply, bcast_const_apply]
  refine congrArg (fun y => Spec.zeroW + y) (Finset.sum_congr rfl fun e _ => ?_)
  rw [gath_rows64_eq, GatherRows.gather_rows_apply (by decide), rowOf_srcIdx]
  rfl

/-- The two rows of the edge list, at an edge. -/
theorem rowK_apply (ei : (⟨S2x3200000, .i32⟩ : BufTy).Contents (Elt Ideal)) (e : Fin 3200000) : rowK (F := Ideal) ei (ix1 e) = rowOf ei e := by
  unfold rowK rowOf
  rw [shapeCast_apply _ shapeCasts_S1x3200000_S3200000 (ix1 e) (ix2 (0 : Fin 1) e)
    (by rw [Shape.rowMajor_val_two, Shape.rowMajor_val_one]; show 0 * 3200000 + e.val = e.val; omega)]
  exact extractStridedSlice_apply ![0, 0] ei slices_S2x3200000_S1x3200000_0_0 (ix2 (0 : Fin 1) e) (ix2 (0 : Fin 2) e) (fun a => match a with
    | ⟨0, _⟩ => by show (0 : Nat) = 0 + 0; omega
    | ⟨1, _⟩ => by show e.val = 0 + e.val; omega)
theorem colK_apply (ei : (⟨S2x3200000, .i32⟩ : BufTy).Contents (Elt Ideal)) (e : Fin 3200000) : colK (F := Ideal) ei (ix1 e) = colOf ei e := by
  unfold colK colOf
  rw [shapeCast_apply _ shapeCasts_S1x3200000_S3200000 (ix1 e) (ix2 (0 : Fin 1) e)
    (by rw [Shape.rowMajor_val_two, Shape.rowMajor_val_one]; show 0 * 3200000 + e.val = e.val; omega)]
  exact extractStridedSlice_apply ![1, 0] ei slices_S2x3200000_S1x3200000_1_0 (ix2 (0 : Fin 1) e) (ix2 (1 : Fin 2) e) (fun a => match a with
    | ⟨0, _⟩ => by show (1 : Nat) = 1 + 0; omega
    | ⟨1, _⟩ => by show e.val = 0 + e.val; omega)

end Cert.KernelIdeal.HostIndex

end
-- ==== Proof.KFinal.lean ====
/-
  The kernel's composed term read at an index is the factored form `Spec.outK`.
-/
import proofs.«171371_j15762529976715_2_alg».proof.Proof.KValue
import proofs.«171371_j15762529976715_2_alg».proof.Proof.KIndex

set_option maxRecDepth 16384

noncomputable section

namespace Cert.KernelIdeal.KernelIndex

open Cert.KernelIdeal Cert.KernelIdeal.Gen Cert.KernelIdeal.HostValue Cert.KernelIdeal.HostIndex Cert.KernelIdeal.KernelValue
  Idealize.ShloMosaic Idealize.ShloMosaic.ValueIdx Cert.Adapt

variable (x : (⟨S100000x512, .f32⟩ : BufTy).Contents (Elt Ideal)) (ei : (⟨S2x3200000, .i32⟩ : BufTy).Contents (Elt Ideal)) (W1 : (⟨S512x16, .f32⟩ : BufTy).Contents (Elt Ideal))
  (b1 : (⟨S16, .f32⟩ : BufTy).Contents (Elt Ideal)) (W2 : (⟨S16x64, .f32⟩ : BufTy).Contents (Elt Ideal)) (b2 : (⟨S64, .f32⟩ : BufTy).Contents (Elt Ideal))

/-- The target row of the edge list, as a function of the edge. -/
theorem cur1_colK : cur1 (n := 3200000) (colK (F := Ideal) ei) = colOf ei := funext fun e => colK_apply ei e
/-- The source row of the edge list, as a function of the edge. -/
theorem cur1_rowK : cur1 (n := 3200000) (rowK (F := Ideal) ei) = rowOf ei := funext fun e => rowK_apply ei e

/-- The normalisation column at row `i` is the factor of node `i`. -/
theorem dis_apply (i : Fin 100000) : dis2d (F := Ideal) (disT ei) (ix2 i (0 : Fin 1)) = Spec.disK (colOf ei) i := by
  rw [dis2d_apply]; unfold disT; rw [disK_apply, cur1_colK]

/-- The first region's output at `(i, k)`: `(x W1)[i, k]` times the factor of node `i`. -/
theorem sh1T_apply (i : Fin 100000) (k : Fin 16) :
    sh1T x ei W1 (ix2 i k) = Spec.sh1K (colOf ei) (cur2 (n0 := 100000) (n1 := 512) x) (cur2 (n0 := 512) (n1 := 16) W1) i k := by
  unfold sh1T Spec.sh1K
  show (∑ j : Fin 512, x (ix2 i j) * W1 (ix2 j k)) * dis2d (F := Ideal) (disT ei) (ix2 i (0 : Fin 1)) = _
  rw [dis_apply]; rfl

theorem cur2_sh1T : cur2 (n0 := 100000) (n1 := 16) (sh1T x ei W1)
    = Spec.sh1K (colOf ei) (cur2 (n0 := 100000) (n1 := 512) x) (cur2 (n0 := 512) (n1 := 16) W1) :=
  funext fun n => funext fun k => sh1T_apply x ei W1 n k

/-- The second region's output at `(i, c)`. -/
theorem sh2T_apply (i : Fin 100000) (c : Fin 64) :
    sh2T x ei W1 b1 W2 (ix2 i c) = Spec.sh2K (rowOf ei) (colOf ei) (cur2 (n0 := 100000) (n1 := 512) x) (cur2 (n0 := 512) (n1 := 16) W1)
      (cur1 (n := 16) b1) (cur2 (n0 := 16) (n1 := 64) W2) i c := by
  unfold sh2T Spec.sh2K
  show (∑ k : Fin 16, max (dis2d (F := Ideal) (disT ei) (ix2 i (0 : Fin 1))
        * (agg16 (F := Ideal) (rowK (F := Ideal) ei) (colK (F := Ideal) ei) (sh1T x ei W1) (ix2 i k) + sh1T x ei W1 (ix2 i k))
        + shapeCast S1x16 b1 shapeCasts_S16_S1x16 (ix2 (0 : Fin 1) k)) (Ideal.ofBits .f32 0x00000000#32) * W2 (ix2 k c))
      * dis2d (F := Ideal) (disT ei) (ix2 i (0 : Fin 1)) = _
  rw [dis_apply]
  refine congrArg (fun y => y * Spec.disK (colOf ei) i) (Finset.sum_congr rfl fun k _ => ?_)
  rw [agg16_apply, bias16_apply, sh1T_apply, cur1_rowK, cur1_colK, cur2_sh1T]
  rfl

theorem cur2_sh2T : cur2 (n0 := 100000) (n1 := 64) (sh2T x ei W1 b1 W2)
    = Spec.sh2K (rowOf ei) (colOf ei) (cur2 (n0 := 100000) (n1 := 512) x) (cur2 (n0 := 512) (n1 := 16) W1)
      (cur1 (n := 16) b1) (cur2 (n0 := 16) (n1 := 64) W2) :=
  funext fun n => funext fun c => sh2T_apply x ei W1 b1 W2 n c

/-- THE KERNEL'S RESULT at `(i, c)` is the factored form. -/
theorem outT_apply (i : Fin 100000) (c : Fin 64) :
    outT x ei W1 b1 W2 b2 (ix2 i c) = Spec.outK (rowOf ei) (colOf ei) (cur2 (n0 := 100000) (n1 := 512) x) (cur2 (n0 := 512) (n1 := 16) W1)
      (cur1 (n := 16) b1) (cur2 (n0 := 16) (n1 := 64) W2) (cur1 (n := 64) b2) i c := by
  unfold outT Spec.outK
  show dis2d (F := Ideal) (disT ei) (ix2 i (0 : Fin 1))
      * (agg64 (F := Ideal) (rowK (F := Ideal) ei) (colK (F := Ideal) ei) (sh2T x ei W1 b1 W2) (ix2 i c) + sh2T x ei W1 b1 W2 (ix2 i c))
      + shapeCast S1x64 b2 shapeCasts_S64_S1x64 (ix2 (0 : Fin 1) c) = _
  rw [dis_apply, agg64_apply, bias64_apply, sh2T_apply, cur1_rowK, cur1_colK, cur2_sh2T]
  rfl

end Cert.KernelIdeal.KernelIndex

end
-- ==== Proof.LibGatherVec.lean ====
/-
  Reading a vector gather at an index.

  `x[idx]` of a vector `x : [N]` at an integer vector `idx : [E]` lowers to a gather with the start indices
  laid out as `[E, 1]`: no offset axis, collapsed axis 0, the start index map `[0]`, slices of one element.
  The element `e` of the result is the operand's element `r`, where `r` is the start index `idx[e, 0]` read as
  a signed integer and clamped into `[0, N - 1]`: the same row that a row gather at these start indices selects.
-/
import Idealize.ShloMosaic.Lib.ValueIdx
import proofs.«171371_j15762529976715_2_alg».proof.Proof.LibGatherRows

noncomputable section

namespace Idealize.ShloMosaic.GatherVec

open Idealize.ShloMosaic Idealize.ShloMosaic.ValueIdx

variable {α : Type}

/-- The dimension numbers of an element gather: operand `[N]`, start indices `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the only operand axis the slice starts at the clamped start index. -/
theorem vecDims_start {N E w : Nat}
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).start (ix1 e) idx (0 : Fin 1) = min (idx (ix2 e (0 : Fin 1))).toInt.toNat (N - 1) := by
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The operand index of result element `e` is the row `rowOf e`. -/
theorem vecDims_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx = ix1 (GatherRows.rowOf hN idx e) := by
  funext a
  obtain rfl : a = 0 := Subsingleton.elim _ _
  refine Fin.ext ?_
  show (vecDims N E wf).start (ix1 e) idx (0 : Fin 1) + (vecDims N E wf).batchCoord (ix1 e) (0 : Fin 1)
    + (vecDims N E wf).offCoord (ix1 e) (0 : Fin 1) = min (idx (ix2 e (0 : Fin 1))).toInt.toNat (N - 1)
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero, vecDims_start]

/-- THE ELEMENT GATHER READ AT `e`: the operand's element `rowOf e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (GatherRows.rowOf hN idx e)) := by
  unfold Host.gather
  rw [vecDims_operandIdx hN wf idx e]

end Idealize.ShloMosaic.GatherVec

end
-- ==== Proof.LibConcatVec.lean ====
/-
  Reading a concatenation of two vectors, and an iota vector, at an index.

  The concatenation of `a : [A]` and `b : [B]` along their only axis is the vector of length `A + B` whose element
  `j` is `a j` when `j < A` and `b (j - A)` otherwise. The iota vector of length `N` holds at `n` the word of `n`;
  a 32-bit word of a natural number below `2 ^ 31` reads back, signed, as that number.
-/
import Idealize.ShloMosaic.Lib.ValueIdx

noncomputable section

namespace Idealize.ShloMosaic.ConcatVec

open Idealize.ShloMosaic Idealize.ShloMosaic.ValueIdx

variable {α : Type}

/-- A position below the first size falls in the first piece, at that position. -/
theorem locate_cons_lt (n : Nat) (ns : List Nat) (c : Nat) (h : c < (n :: ns).sum) (hc : c < n) :
    locate (n :: ns) c h = ⟨⟨0, Nat.zero_lt_succ _⟩, ⟨c, hc⟩⟩ := by
  unfold locate
  rw [dif_pos hc]

/-- A position at or above the first size falls where the rest places it less that size, one piece later. -/
theorem locate_cons_ge (n : Nat) (ns : List Nat) (c : Nat) (h : c < (n :: ns).sum) (hc : ¬ c < n) :
    locate (n :: ns) c h =
      ⟨(locate ns (c - n) (by rw [List.sum_cons] at h; omega)).1.succ,
        (locate ns (c - n) (by rw [List.sum_cons] at h; omega)).2⟩ := by
  rw [locate.eq_def]
  simp only [dif_neg hc]

/-- The sizes, along axis `a`, of the pieces `xs` of a concatenation into `t`. -/
abbrev pieceSizes (t : Shape) (a : Fin t.rank) (xs : List ((s : Shape) × (s.Idx → α))) : List Nat :=
  (xs.map (·.1)).map fun s => if h : s.rank = t.rank then s.size (a.cast h.symm) else 0

/-- The element of a concatenation at `j`, given the piece and the position in it where `j`'s coordinate on the
    axis falls: that piece, read at `j` with the coordinate on the axis replaced by the position. -/
def concatAt (t : Shape) (a : Fin t.rank) (xs : List ((s : Shape) × (s.Idx → α)))
    (h : Shape.Concatenates (xs.map (·.1)) t a) (j : t.Idx)
    (kr : (k : Fin (pieceSizes t a xs).length) × Fin (pieceSizes t a xs)[k]) : α :=
  have hk : kr.1.val < xs.length := by simpa [pieceSizes] using kr.1.isLt
  let p := xs[kr.1.val]
  have hp : p.1 ∈ xs.map (·.1) := List.mem_map.2 ⟨p, List.getElem_mem hk, rfl⟩
  have hr : p.1.rank = t.rank := (h.2.1 p.1 hp).1
  p.2 fun b =>
    if hb : b.cast hr = a then
      kr.2.cast (by
        have : (pieceSizes t a xs)[kr.1.val] = if h : p.1.rank = t.rank then p.1.size (a.cast h.symm) else 0 := by
          simp [pieceSizes, p]
        rw [Fin.getElem_fin, this, dif_pos hr, ← hb]; rfl)
    else (j (b.cast hr)).cast ((h.2.1 p.1 hp).2 (b.cast hr) hb).symm

/-- A concatenation at `j` is `concatAt` at the place where `j`'s coordinate on the axis falls. -/
theorem concatenate_eq_concatAt (t : Shape) (a : Fin t.rank) (xs : List ((s : Shape) × (s.Idx → α)))
    (h : Shape.Concatenates (xs.map (·.1)) t a) (j : t.Idx) :
    concatenate t a xs h j
      = concatAt t a xs h j (locate (pieceSizes t a xs) (j a).val (by rw [h.2.2]; exact (j a).isLt)) := rfl

/-- THE CONCATENATION READ IN ITS FIRST PART: element `j < A` is `a j`. -/
theorem concat2_left {A B T : Nat} (a : (⟨1, ![A]⟩ : Shape).Idx → α) (b : (⟨1, ![B]⟩ : Shape).Idx → α)
    (h : Shape.Concatenates [⟨1, ![A]⟩, ⟨1, ![B]⟩] ⟨1, ![T]⟩ 0) (j : Fin T) (hj : j.val < A) :
    concatenate (⟨1, ![T]⟩ : Shape) 0 [⟨⟨1, ![A]⟩, a⟩, ⟨⟨1, ![B]⟩, b⟩] h (ix1 j) = a (ix1 ⟨j.val, hj⟩) := by
  have hT : A + (B + 0) = T := h.2.2
  have hlt : j.val < [A, B].sum := by simp only [List.sum_cons, List.sum_nil]; omega
  have key : locate [A, B] j.val hlt = ⟨⟨0, Nat.zero_lt_succ _⟩, ⟨j.val, hj⟩⟩ :=
    locate_cons_lt A [B] j.val hlt hj
  rw [concatenate_eq_concatAt]
  refine (congrArg (concatAt (⟨1, ![T]⟩ : Shape) 0 [⟨⟨1, ![A]⟩, a⟩, ⟨⟨1, ![B]⟩, b⟩] h (ix1 j)) key).trans ?_
  unfold concatAt
  show a (fun b_1 => _) = a _
  congr 1
  funext b_1
  obtain rfl : b_1 = 0 := Subsingleton.elim _ _
  rfl

/-- THE CONCATENATION READ IN ITS SECOND PART: element `j ≥ A` is `b (j - A)`. -/
theorem concat2_right {A B T : Nat} (a : (⟨1, ![A]⟩ : Shape).Idx → α) (b : (⟨1, ![B]⟩ : Shape).Idx → α)
    (h : Shape.Concatenates [⟨1, ![A]⟩, ⟨1, ![B]⟩] ⟨1, ![T]⟩ 0) (j : Fin T) (hj : A ≤ j.val) (hB : j.val - A < B) :
    concatenate (⟨1, ![T]⟩ : Shape) 0 [⟨⟨1, ![A]⟩, a⟩, ⟨⟨1, ![B]⟩, b⟩] h (ix1 j) = b (ix1 ⟨j.val - A, hB⟩) := by
  have hT : A + (B + 0) = T := h.2.2
  have hlt : j.val < [A, B].sum := by simp only [List.sum_cons, List.sum_nil]; omega
  have hlt' : j.val - A < [B].sum := by simp only [List.sum_cons, List.sum_nil]; omega
  have key : locate [A, B] j.val hlt
      = ⟨⟨1, Nat.succ_lt_succ (Nat.zero_lt_succ _)⟩, ⟨j.val - A, hB⟩⟩ := by
    rw [locate_cons_ge A [B] j.val hlt (Nat.not_lt.mpr hj)]
    rw [locate_cons_lt B [] (j.val - A) hlt' hB]
    rfl
  rw [concatenate_eq_concatAt]
  refine (congrArg (concatAt (⟨1, ![T]⟩ : Shape) 0 [⟨⟨1, ![A]⟩, a⟩, ⟨⟨1, ![B]⟩, b⟩] h (ix1 j)) key).trans ?_
  unfold concatAt
  show b (fun b_1 => _) = b _
  congr 1
  funext b_1
  obtain rfl : b_1 = 0 := Subsingleton.elim _ _
  rfl

/-- The length of the concatenation is the sum of the two lengths. -/
theorem concat2_size {A B T : Nat} (h : Shape.Concatenates [⟨1, ![A]⟩, ⟨1, ![B]⟩] ⟨1, ![T]⟩ 0) : T = A + B := by
  have hT : A + (B + 0) = T := h.2.2
  omega

end Idealize.ShloMosaic.ConcatVec

namespace Idealize.ShloMosaic.IotaVec

open Idealize.ShloMosaic Idealize.ShloMosaic.ValueIdx

/-- The iota vector read at `n`: the word of `n`. -/
theorem iota_vec_apply {N : Nat} (w : Nat) (n : Fin N) :
    iotaInDim (⟨1, ![N]⟩ : Shape) w 0 (ix1 n) = BitVec.ofNat w n.val := rfl

/-- The 32-bit word of a natural number below `2 ^ 31` reads back, signed, as that number. -/
theorem toInt_ofNat_small (n : Nat) (h : n < 2 ^ 31) : (BitVec.ofNat 32 n).toInt = (n : ℤ) := by
  rw [BitVec.toInt_eq_toNat_cond, BitVec.toNat_ofNat]
  have hm : n % 2 ^ 32 = n := Nat.mod_eq_of_lt (by omega)
  rw [hm, if_pos (by omega)]

end Idealize.ShloMosaic.IotaVec

end
-- ==== Proof.RIndex.lean ====
/-
  The reference program's result read at an index, at the ideal instance.

  Each lemma says what one entry of an array the reference computes is, in terms of the entries of the arrays it is
  computed from. The edge list is extended by one self-loop per node (`Spec.catI`); a scatter's index column is the
  extended target word, a gather's index column the extended word with a negative word counted from the end; the degree
  counts the extended edges landing on a node; a layer's entry `(i, k)` is the sum, over the extended edges landing on
  `i`, of entry `k` of the source's row times the edge's normalisation factor, plus the bias. The last lemma identifies
  the program's result with the textbook form `Spec.outR`.
-/
import proofs.«171371_j15762529976715_2_alg».proof.Proof.RefReadP
import proofs.«171371_j15762529976715_2_alg».proof.Proof.Spec
import proofs.«171371_j15762529976715_2_alg».proof.Proof.Adapt
import proofs.«171371_j15762529976715_2_alg».proof.Proof.LibScatterRows
import proofs.«171371_j15762529976715_2_alg».proof.Proof.LibGatherRows
import proofs.«171371_j15762529976715_2_alg».proof.Proof.LibGatherVec
import proofs.«171371_j15762529976715_2_alg».proof.Proof.LibConcatVec
import Idealize.ShloMosaic.Lib.Pipeline.Value
import Idealize.ShloMosaic.Lib.ValueIdx
import Idealize.ShloMosaic.PureOps.Ideal.Laws

set_option maxRecDepth 16384

noncomputable section

namespace Cert.ReferenceIdeal.RefIndex

open Cert.ReferenceIdeal Cert.ReferenceIdeal.Gen Cert.ReferenceIdeal.ReadP Idealize.ShloMosaic Idealize.ShloMosaic.ValueIdx Cert.Adapt

/-! ## The extended edge list -/

/-- The node numbers: entry `n` is the word of `n`. -/
theorem v0_apply (n : Fin 100000) : val_main_v0 (F := Ideal) (ix1 n) = BitVec.ofNat 32 n.val := rfl

/-- The sliced and flattened row 0 of the edge list is the source words. -/
theorem v2_apply (x1 : (⟨S2x3200000, .i32⟩ : BufTy).Contents (Elt Ideal)) (e : Fin 3200000) :
    val_main_v2 (F := Ideal) x1 (ix1 e) = rowOf x1 e := by
  rw [val_main_v2_apply, val_main_v1_apply]
  unfold rowOf
  refine congrArg x1 (funext fun a => ?_)
  match a with
  | ⟨0, _⟩ => exact Fin.ext rfl
  | ⟨1, _⟩ => exact Fin.ext (Nat.mod_eq_of_lt e.isLt)

/-- The sliced and flattened row 1 of the edge list is the target words. -/
theorem v5_apply (x1 : (⟨S2x3200000, .i32⟩ : BufTy).Contents (Elt Ideal)) (e : Fin 3200000) :
    val_main_v5 (F := Ideal) x1 (ix1 e) = colOf x1 e := by
  rw [val_main_v5_apply, val_main_v4_apply]
  unfold colOf
  refine congrArg x1 (funext fun a => ?_)
  match a with
  | ⟨0, _⟩ => exact Fin.ext rfl
  | ⟨1, _⟩ => exact Fin.ext (Nat.mod_eq_of_lt e.isLt)

/-- The source words followed by the node numbers. -/
theorem v3_apply (x1 : (⟨S2x3200000, .i32⟩ : BufTy).Contents (Elt Ideal)) (e : Fin 3300000) :
    val_main_v3 (F := Ideal) x1 (ix1 e) = Spec.catI (rowOf x1) e := by
  unfold val_main_v3 Spec.catI
  by_cases h : e.val < 3200000
  · rw [dif_pos h]
    exact (ConcatVec.concat2_left (val_main_v2 (F := Ideal) x1) (val_main_v0 (F := Ideal))
      concatenates_S3200000_S100000_S3300000_d0 e h).trans (v2_apply x1 ⟨e.val, h⟩)
  · rw [dif_neg h]
    exact ConcatVec.concat2_right (val_main_v2 (F := Ideal) x1) (val_main_v0 (F := Ideal))
      concatenates_S3200000_S100000_S3300000_d0 e (by omega) (by have := e.isLt; omega)

/-- The target words followed by the node numbers. -/
theorem v6_apply (x1 : (⟨S2x3200000, .i32⟩ : BufTy).Contents (Elt Ideal)) (e : Fin 3300000) :
    val_main_v6 (F := Ideal) x1 (ix1 e) = Spec.catI (colOf x1) e := by
  unfold val_main_v6 Spec.catI
  by_cases h : e.val < 3200000
  · rw [dif_pos h]
    exact (ConcatVec.concat2_left (val_main_v5 (F := Ideal) x1) (val_main_v0 (F := Ideal))
      concatenates_S3200000_S100000_S3300000_d0 e h).trans (v5_apply x1 ⟨e.val, h⟩)
  · rw [dif_neg h]
    exact ConcatVec.concat2_right (val_main_v5 (F := Ideal) x1) (val_main_v0 (F := Ideal))
      concatenates_S3200000_S100000_S3300000_d0 e (by omega) (by have := e.isLt; omega)

/-! ## The index columns -/

/-- A gather index word of the extended source words, at an edge. -/
theorem v21_apply (x1 : (⟨S2x3200000, .i32⟩ : BufTy).Contents (Elt Ideal)) (e : Fin 3300000) :
    val_main_v21 (F := Ideal) x1 (ix1 e) = Spec.nrm (Spec.catI (rowOf x1) e) := by
  rw [← v3_apply]; rfl
theorem v28_apply (x1 : (⟨S2x3200000, .i32⟩ : BufTy).Contents (Elt Ideal)) (e : Fin 3300000) :
    val_main_v28 (F := Ideal) x1 (ix1 e) = Spec.nrm (Spec.catI (colOf x1) e) := by
  rw [← v6_apply]; rfl
theorem v37_apply (x1 : (⟨S2x3200000, .i32⟩ : BufTy).Contents (Elt Ideal)) (e : Fin 3300000) :
    val_main_v37 (F := Ideal) x1 (ix1 e) = Spec.nrm (Spec.catI (rowOf x1) e) := by
  rw [← v3_apply]; rfl
theorem v55_apply (x1 : (⟨S2x3200000, .i32⟩ : BufTy).Contents (Elt Ideal)) (e : Fin 3300000) :
    val_main_v55 (F := Ideal) x1 (ix1 e) = Spec.nrm (Spec.catI (rowOf x1) e) := by
  rw [← v3_apply]; rfl

/-- The scatter index of an extended edge is its target word (the degree's scatter). -/
theorem v9_apply (x1 : (⟨S2x3200000, .i32⟩ : BufTy).Contents (Elt Ideal)) (e : Fin 3300000) :
    val_main_v9 (F := Ideal) x1 (ix2 e (0 : Fin 1)) = Spec.catI (colOf x1) e := by
  rw [val_main_v9_apply, show idx_main_v9 (ix2 e (0 : Fin 1)) = ix1 e from funext fun a => match a with | ⟨0, _⟩ => rfl]
  exact v6_apply x1 e
/-- The scatter index of an extended edge is its target word (the first layer's scatter). -/
theorem v44_apply (x1 : (⟨S2x3200000, .i32⟩ : BufTy).Contents (Elt Ideal)) (e : Fin 3300000) :
    val_main_v44 (F := Ideal) x1 (ix2 e (0 : Fin 1)) = Spec.catI (colOf x1) e := by
  rw [val_main_v44_apply, show idx_main_v44 (ix2 e (0 : Fin 1)) = ix1 e from funext fun a => match a with | ⟨0, _⟩ => rfl]
  exact v6_apply x1 e
/-- The scatter index of an extended edge is its target word (the second layer's scatter). -/
theorem v62_apply (x1 : (⟨S2x3200000, .i32⟩ : BufTy).Contents (Elt Ideal)) (e : Fin 3300000) :
    val_main_v62 (F := Ideal) x1 (ix2 e (0 : Fin 1)) = Spec.catI (colOf x1) e := by
  rw [val_main_v62_apply, show idx_main_v62 (ix2 e (0 : Fin 1)) = ix1 e from funext fun a => match a with | ⟨0, _⟩ => rfl]
  exact v6_apply x1 e

/-- The gather index of an extended edge is its source word, a negative word counted from the end. -/
theorem v22_apply (x1 : (⟨S2x3200000, .i32⟩ : BufTy).Contents (Elt Ideal)) (e : Fin 3300000) :
    val_main_v22 (F := Ideal) x1 (ix2 e (0 : Fin 1)) = Spec.nrm (Spec.catI (rowOf x1) e) := by
  rw [val_main_v22_apply, show idx_main_v22 (ix2 e (0 : Fin 1)) = ix1 e from funext fun a => match a with | ⟨0, _⟩ => rfl]
  exact v21_apply x1 e
theorem v29_apply (x1 : (⟨S2x3200000, .i32⟩ : BufTy).Contents (Elt Ideal)) (e : Fin 3300000) :
    val_main_v29 (F := Ideal) x1 (ix2 e (0 : Fin 1)) = Spec.nrm (Spec.catI (colOf x1) e) := by
  rw [val_main_v29_apply, show idx_main_v29 (ix2 e (0 : Fin 1)) = ix1 e from funext fun a => match a with | ⟨0, _⟩ => rfl]
  exact v28_apply x1 e
theorem v38_apply (x1 : (⟨S2x3200000, .i32⟩ : BufTy).Contents (Elt Ideal)) (e : Fin 3300000) :
    val_main_v38 (F := Ideal) x1 (ix2 e (0 : Fin 1)) = Spec.nrm (Spec.catI (rowOf x1) e) := by
  rw [val_main_v38_apply, show idx_main_v38 (ix2 e (0 : Fin 1)) = ix1 e from funext fun a => match a with | ⟨0, _⟩ => rfl]
  exact v37_apply x1 e
theorem v56_apply (x1 : (⟨S2x3200000, .i32⟩ : BufTy).Contents (Elt Ideal)) (e : Fin 3300000) :
    val_main_v56 (F := Ideal) x1 (ix2 e (0 : Fin 1)) = Spec.nrm (Spec.catI (rowOf x1) e) := by
  rw [val_main_v56_apply, show idx_main_v56 (ix2 e (0 : Fin 1)) = ix1 e from funext fun a => match a with | ⟨0, _⟩ => rfl]
  exact v55_apply x1 e

/-- The node a gather selects for an extended edge. -/
theorem rowOf_v22 (x1 : (⟨S2x3200000, .i32⟩ : BufTy).Contents (Elt Ideal)) (e : Fin 3300000) :
    GatherRows.rowOf (N := 100000) (by decide) (val_main_v22 (F := Ideal) x1) e = Spec.src (Spec.catI (rowOf x1) e) := by
  apply Fin.ext
  show min (val_main_v22 (F := Ideal) x1 (ix2 e (0 : Fin 1))).toInt.toNat (100000 - 1) = min (Spec.nrm (Spec.catI (rowOf x1) e)).toInt.toNat 99999
  rw [v22_apply]
theorem rowOf_v29 (x1 : (⟨S2x3200000, .i32⟩ : BufTy).Contents (Elt Ideal)) (e : Fin 3300000) :
    GatherRows.rowOf (N := 100000) (by decide) (val_main_v29 (F := Ideal) x1) e = Spec.src (Spec.catI (colOf x1) e) := by
  apply Fin.ext
  show min (val_main_v29 (F := Ideal) x1 (ix2 e (0 : Fin 1))).toInt.toNat (100000 - 1) = min (Spec.nrm (Spec.catI (colOf x1) e)).toInt.toNat 99999
  rw [v29_apply]
theorem rowOf_v38 (x1 : (⟨S2x3200000, .i32⟩ : BufTy).Contents (Elt Ideal)) (e : Fin 3300000) :
    GatherRows.rowOf (N := 100000) (by decide) (val_main_v38 (F := Ideal) x1) e = Spec.src (Spec.catI (rowOf x1) e) := by
  apply Fin.ext
  show min (val_main_v38 (F := Ideal) x1 (ix2 e (0 : Fin 1))).toInt.toNat (100000 - 1) = min (Spec.nrm (Spec.catI (rowOf x1) e)).toInt.toNat 99999
  rw [v38_apply]
theorem rowOf_v56 (x1 : (⟨S2x3200000, .i32⟩ : BufTy).Contents (Elt Ideal)) (e : Fin 3300000) :
    GatherRows.rowOf (N := 100000) (by decide) (val_main_v56 (F := Ideal) x1) e = Spec.src (Spec.catI (rowOf x1) e) := by
  apply Fin.ext
  show min (val_main_v56 (F := Ideal) x1 (ix2 e (0 : Fin 1))).toInt.toNat (100000 - 1) = min (Spec.nrm (Spec.catI (rowOf x1) e)).toInt.toNat 99999
  rw [v56_apply]

/-! ## Degree and normalisation -/

/-- A node's degree is the number of extended edges landing on it. -/
theorem v10_apply (x1 : (⟨S2x3200000, .i32⟩ : BufTy).Contents (Elt Ideal)) (i : Fin 100000) :
    val_main_v10 (F := Ideal) x1 (ix1 i) = Spec.degR (Spec.catI (colOf x1)) i := by
  unfold val_main_v10 Spec.degR
  have h := ScatterRows.scatterAdd_vec_apply (φ := .f32) scatter_S100000_S3300000x1_S3300000_n_0_0_1_wf
    (val_main_v8 (F := Ideal)) (val_main_v9 (F := Ideal) x1) (val_main_v7 (F := Ideal)) i
  simp only [v9_apply] at h
  refine h.trans ?_
  exact congrArg₂ (· + ·) rfl (Finset.sum_congr (Finset.filter_congr fun _ _ => Iff.rfl) fun e _ => rfl)

/-- The normalisation factor of a node is `Spec.disOf` of its degree. -/
theorem v16_apply (x1 : (⟨S2x3200000, .i32⟩ : BufTy).Contents (Elt Ideal)) (i : Fin 100000) :
    val_main_v16 (F := Ideal) x1 (ix1 i) = Spec.disR (Spec.catI (colOf x1)) i := by
  rw [val_main_v16_apply, val_main_v12_apply, val_main_v15_apply, val_main_v14_apply, v10_apply]
  unfold Spec.disR
  generalize Spec.degR (Spec.catI (colOf x1)) i = d
  rfl

/-- The factor of an extended edge's source. -/
theorem v23_apply (x1 : (⟨S2x3200000, .i32⟩ : BufTy).Contents (Elt Ideal)) (e : Fin 3300000) :
    val_main_v23 (F := Ideal) x1 (ix1 e) = Spec.disR (Spec.catI (colOf x1)) (Spec.src (Spec.catI (rowOf x1) e)) := by
  refine (GatherVec.gather_vec_apply (N := 100000) (by decide) gather_S100000_S3300000x1_S3300000_n_0_n_n_0_1_1_wf
    (val_main_v16 (F := Ideal) x1) (val_main_v22 (F := Ideal) x1) e).trans ?_
  rw [rowOf_v22, v16_apply]
/-- The factor of an extended edge's target. -/
theorem v30_apply (x1 : (⟨S2x3200000, .i32⟩ : BufTy).Contents (Elt Ideal)) (e : Fin 3300000) :
    val_main_v30 (F := Ideal) x1 (ix1 e) = Spec.disR (Spec.catI (colOf x1)) (Spec.src (Spec.catI (colOf x1) e)) := by
  refine (GatherVec.gather_vec_apply (N := 100000) (by decide) gather_S100000_S3300000x1_S3300000_n_0_n_n_0_1_1_wf
    (val_main_v16 (F := Ideal) x1) (val_main_v29 (F := Ideal) x1) e).trans ?_
  rw [rowOf_v29, v16_apply]

/-- The normalisation factor of an extended edge. -/
theorem v31_apply (x1 : (⟨S2x3200000, .i32⟩ : BufTy).Contents (Elt Ideal)) (e : Fin 3300000) :
    val_main_v31 (F := Ideal) x1 (ix1 e) = Spec.normR (Spec.catI (rowOf x1)) (Spec.catI (colOf x1)) e := by
  unfold Spec.normR
  rw [val_main_v31_apply, v23_apply, v30_apply, Ideal.mulf_def]

/-! ## The first layer -/

/-- The first feature transform: a row of the features times a column of the weights. -/
theorem v32_apply (x0 : (⟨S100000x512, .f32⟩ : BufTy).Contents (Elt Ideal)) (x2 : (⟨S512x16, .f32⟩ : BufTy).Contents (Elt Ideal))
    (i : Fin 100000) (k : Fin 16) :
    val_main_v32 (F := Ideal) x0 x2 (ix2 i k) = Spec.h1R (cur2 x0) (cur2 x2) i k := by
  rw [val_main_v32_apply]
  unfold Spec.h1R
  refine Finset.sum_congr rfl fun j _ => ?_
  rw [show lidx_main_v32 (ix2 i k) j = ix2 i j from funext fun a => match a with | ⟨0, _⟩ => rfl | ⟨1, _⟩ => rfl,
    show ridx_main_v32 (ix2 i k) j = ix2 j k from funext fun a => match a with | ⟨0, _⟩ => rfl | ⟨1, _⟩ => rfl,
    show cur2 x0 i j = x0 (ix2 i j) from rfl, show cur2 x2 j k = x2 (ix2 j k) from rfl]

/-- The edge factor spread along sixteen columns. -/
theorem v41_apply (x1 : (⟨S2x3200000, .i32⟩ : BufTy).Contents (Elt Ideal)) (e : Fin 3300000) (k : Fin 16) :
    val_main_v41 (F := Ideal) x1 (ix2 e k) = Spec.normR (Spec.catI (rowOf x1)) (Spec.catI (colOf x1)) e := by
  rw [val_main_v41_apply, val_main_v40_apply,
    show idx_main_v40 (idx_main_v41 (ix2 e k)) = ix1 e from funext fun a => match a with | ⟨0, _⟩ => rfl]
  exact v31_apply x1 e

/-- The gathered source row of an extended edge. -/
theorem v39_apply (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (e : Fin 3300000) (k : Fin 16) :
    val_main_v39 (F := Ideal) x0 x1 x2 (ix2 e k)
      = val_main_v32 (F := Ideal) x0 x2 (ix2 (Spec.src (Spec.catI (rowOf x1) e)) k) := by
  refine (GatherRows.gather_rows_apply (N := 100000) (by decide) gather_S100000x16_S3300000x1_S3300000x16_1_0_n_n_0_1_116_wf
    (val_main_v32 (F := Ideal) x0 x2) (val_main_v38 (F := Ideal) x1) e k).trans ?_
  rw [rowOf_v38]

/-- The bias spread along the nodes. -/
theorem v47_apply (x3 : (⟨S16, .f32⟩ : BufTy).Contents (Elt Ideal)) (i : Fin 100000) (k : Fin 16) :
    val_main_v47 (F := Ideal) x3 (ix2 i k) = cur1 x3 k := by
  rw [val_main_v47_apply, val_main_v46_apply]
  exact congrArg x3 (funext fun a => match a with | ⟨0, _⟩ => rfl)

/-- The messages of the first layer summed at their targets. -/
theorem v45_apply (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (i : Fin 100000) (k : Fin 16) :
    val_main_v45 (F := Ideal) x0 x1 x2 (ix2 i k)
      = Spec.zeroW + ∑ e ∈ Finset.univ.filter (fun e : Fin 3300000 => (Spec.catI (colOf x1) e).toInt = (i.val : ℤ)),
          Spec.h1R (cur2 x0) (cur2 x2) (Spec.src (Spec.catI (rowOf x1) e)) k
            * Spec.normR (Spec.catI (rowOf x1)) (Spec.catI (colOf x1)) e := by
  unfold val_main_v45
  have h := ScatterRows.scatterAdd_rows_apply (φ := .f32) scatter_S100000x16_S3300000x1_S3300000x16_1_0_0_1_wf
    (val_main_v43 (F := Ideal)) (val_main_v44 (F := Ideal) x1) (val_main_v42 (F := Ideal) x0 x1 x2) i k
  simp only [v44_apply] at h
  refine h.trans (congrArg₂ (· + ·) rfl (Finset.sum_congr (Finset.filter_congr fun _ _ => Iff.rfl) fun e _ => ?_))
  rw [val_main_v42_apply, v39_apply, v41_apply, v32_apply, Ideal.mulf_def]

/-- The first layer's entry `(i, k)`. -/
theorem v48_apply (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal)) (i : Fin 100000) (k : Fin 16) :
    val_main_v48 (F := Ideal) x0 x1 x2 x3 (ix2 i k)
      = Spec.layR (Spec.catI (rowOf x1)) (Spec.catI (colOf x1)) (Spec.h1R (cur2 x0) (cur2 x2)) (cur1 x3) i k := by
  unfold Spec.layR
  rw [val_main_v48_apply, v45_apply, v47_apply, Ideal.addf_def]

/-- The first layer's entry after the rectifier. -/
theorem v49_apply (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal)) (i : Fin 100000) (k : Fin 16) :
    val_main_v49 (F := Ideal) x0 x1 x2 x3 (ix2 i k)
      = Spec.actR (Spec.catI (rowOf x1)) (Spec.catI (colOf x1)) (cur2 x0) (cur2 x2) (cur1 x3) i k := by
  unfold Spec.actR
  rw [val_main_v49_apply, v48_apply, Ideal.maximumf_def, val_main_call1_v0_apply, val_main_call1_cst_apply]

/-! ## The second layer -/

/-- The second feature transform. -/
theorem v50_apply (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x64, .f32⟩ : BufTy).Contents (Elt Ideal)) (i : Fin 100000) (c : Fin 64) :
    val_main_v50 (F := Ideal) x0 x1 x2 x3 x4 (ix2 i c)
      = Spec.h2R (Spec.catI (rowOf x1)) (Spec.catI (colOf x1)) (cur2 x0) (cur2 x2) (cur1 x3) (cur2 x4) i c := by
  rw [val_main_v50_apply]
  unfold Spec.h2R
  refine Finset.sum_congr rfl fun k _ => ?_
  rw [show lidx_main_v50 (ix2 i c) k = ix2 i k from funext fun a => match a with | ⟨0, _⟩ => rfl | ⟨1, _⟩ => rfl,
    show ridx_main_v50 (ix2 i c) k = ix2 k c from funext fun a => match a with | ⟨0, _⟩ => rfl | ⟨1, _⟩ => rfl,
    v49_apply, show cur2 x4 k c = x4 (ix2 k c) from rfl]

/-- The edge factor spread along sixty-four columns. -/
theorem v59_apply (x1 : (⟨S2x3200000, .i32⟩ : BufTy).Contents (Elt Ideal)) (e : Fin 3300000) (c : Fin 64) :
    val_main_v59 (F := Ideal) x1 (ix2 e c) = Spec.normR (Spec.catI (rowOf x1)) (Spec.catI (colOf x1)) e := by
  rw [val_main_v59_apply, val_main_v58_apply,
    show idx_main_v58 (idx_main_v59 (ix2 e c)) = ix1 e from funext fun a => match a with | ⟨0, _⟩ => rfl]
  exact v31_apply x1 e

/-- The gathered source row of an extended edge. -/
theorem v57_apply (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x64, .f32⟩ : BufTy).Contents (Elt Ideal)) (e : Fin 3300000) (c : Fin 64) :
    val_main_v57 (F := Ideal) x0 x1 x2 x3 x4 (ix2 e c)
      = val_main_v50 (F := Ideal) x0 x1 x2 x3 x4 (ix2 (Spec.src (Spec.catI (rowOf x1) e)) c) := by
  refine (GatherRows.gather_rows_apply (N := 100000) (by decide) gather_S100000x64_S3300000x1_S3300000x64_1_0_n_n_0_1_164_wf
    (val_main_v50 (F := Ideal) x0 x1 x2 x3 x4) (val_main_v56 (F := Ideal) x1) e c).trans ?_
  rw [rowOf_v56]

/-- The bias spread along the nodes. -/
theorem v65_apply (x5 : (⟨S64, .f32⟩ : BufTy).Contents (Elt Ideal)) (i : Fin 100000) (c : Fin 64) :
    val_main_v65 (F := Ideal) x5 (ix2 i c) = cur1 x5 c := by
  rw [val_main_v65_apply, val_main_v64_apply]
  exact congrArg x5 (funext fun a => match a with | ⟨0, _⟩ => rfl)

/-- The messages of the second layer summed at their targets. -/
theorem v63_apply (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x64, .f32⟩ : BufTy).Contents (Elt Ideal)) (i : Fin 100000) (c : Fin 64) :
    val_main_v63 (F := Ideal) x0 x1 x2 x3 x4 (ix2 i c)
      = Spec.zeroW + ∑ e ∈ Finset.univ.filter (fun e : Fin 3300000 => (Spec.catI (colOf x1) e).toInt = (i.val : ℤ)),
          Spec.h2R (Spec.catI (rowOf x1)) (Spec.catI (colOf x1)) (cur2 x0) (cur2 x2) (cur1 x3) (cur2 x4)
              (Spec.src (Spec.catI (rowOf x1) e)) c
            * Spec.normR (Spec.catI (rowOf x1)) (Spec.catI (colOf x1)) e := by
  unfold val_main_v63
  have h := ScatterRows.scatterAdd_rows_apply (φ := .f32) scatter_S100000x64_S3300000x1_S3300000x64_1_0_0_1_wf
    (val_main_v61 (F := Ideal)) (val_main_v62 (F := Ideal) x1) (val_main_v60 (F := Ideal) x0 x1 x2 x3 x4) i c
  simp only [v62_apply] at h
  refine h.trans (congrArg₂ (· + ·) rfl (Finset.sum_congr (Finset.filter_congr fun _ _ => Iff.rfl) fun e _ => ?_))
  rw [val_main_v60_apply, v57_apply, v59_apply, v50_apply, Ideal.mulf_def]

/-- THE REFERENCE'S RESULT AT `(i, c)` is the textbook two-layer convolution over the extended edge list. -/
theorem ref_value_apply (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x64, .f32⟩ : BufTy).Contents (Elt Ideal)) (x5 : (⟨S64, .f32⟩ : BufTy).Contents (Elt Ideal))
    (i : Fin 100000) (c : Fin 64) :
    val_main_v66 (F := Ideal) x0 x1 x2 x3 x4 x5 (ix2 i c)
      = Spec.outR (Spec.catI (rowOf x1)) (Spec.catI (colOf x1)) (cur2 x0) (cur2 x2) (cur1 x3) (cur2 x4) (cur1 x5) i c := by
  unfold Spec.outR Spec.layR
  rw [val_main_v66_apply, v63_apply, v65_apply, Ideal.addf_def]

end Cert.ReferenceIdeal.RefIndex

end
-- ==== Proof.LayerAlgebra.lean ====
/- The extended-real algebra of one graph-convolution layer with symmetric normalisation.

   All values are extended reals that happen to be (coercions of) real numbers; on those, addition and
   multiplication of `EReal` agree with the field operations of `ℝ`, so distributivity and
   associativity — which fail on `EReal` in general — are available. -/
import Idealize.ShloMosaic.PureOps.Ideal

noncomputable section

namespace Cert.LayerAlgebra

open Idealize.ShloMosaic

/-- An extended real that is the coercion of a real number (neither `⊤` nor `⊥`). -/
def IsReal (x : EReal) : Prop := ∃ r : ℝ, x = (r : EReal)

namespace IsReal

theorem coe (r : ℝ) : IsReal (r : EReal) := ⟨r, rfl⟩

theorem zero : IsReal 0 := ⟨0, rfl⟩

theorem one : IsReal 1 := ⟨1, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

/-- The coercion `ℝ → EReal` is monotone, so it commutes with `max`. -/
theorem coe_max (a b : ℝ) : ((Max.max a b : ℝ) : EReal) = Max.max (a : EReal) (b : EReal) :=
  EReal.coe_strictMono.monotone.map_max

theorem max {x y : EReal} (hx : IsReal x) (hy : IsReal y) : IsReal (max x y) := by
  obtain ⟨a, rfl⟩ := hx
  obtain ⟨b, rfl⟩ := hy
  exact ⟨Max.max a b, (coe_max a b).symm⟩

theorem ite {c : Prop} [Decidable c] {x y : EReal} (hx : IsReal x) (hy : IsReal y) :
    IsReal (if c then x else y) := by
  split
  · exact hx
  · exact hy

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact add (h a (Finset.mem_insert_self a s))
      (ih fun i hi => h i (Finset.mem_insert_of_mem hi))

/-- The reciprocal square root of `max x 1` is real when `x` is: `max x 1 ≥ 1 > 0`. -/
theorem rsqrt_max_one (x : EReal) (hx : IsReal x) : IsReal (Ideal.rsqrt (Max.max x 1)) := by
  obtain ⟨a, rfl⟩ := hx
  have h1 : (1 : EReal) = ((1 : ℝ) : EReal) := rfl
  rw [h1, ← coe_max, Ideal.rsqrt_coe]
  have hpos : (0 : ℝ) < Max.max a 1 := lt_of_lt_of_le one_pos (le_max_right a 1)
  rw [if_neg (not_lt.mpr hpos.le), if_neg hpos.ne']
  exact ⟨_, rfl⟩

end IsReal

/-- The degree law: one more (the self loop) added to a count, with the accumulator's initial `0`
    on either side. Addition on `EReal` is a commutative monoid, so no finiteness is needed. -/
theorem deg_eq (s : EReal) : (0 + s) + 1 = 0 + (s + 1) := add_assoc 0 s 1

section Layer

variable {ε : Type} [Fintype ε] (P : ε → Prop) [DecidablePred P] (a d : ε → EReal) (di hi bk : EReal)

/-- The layer law at one node and one feature. `P e`: edge `e` lands on the node; `a e`: the
    transformed feature of the edge's source; `d e`: the source's normalisation; `di`: the node's own
    normalisation; `hi`: its own transformed feature; `bk`: the bias. Left: normalise the messages at
    the source, sum them with the scaled self term, normalise at the destination, add the bias. Right:
    sum over the edges and the self loop of feature times the product of the two normalisations. -/
theorem layer_eq
    (ha : ∀ e, IsReal (a e)) (hd : ∀ e, IsReal (d e)) (hdi : IsReal di) (hhi : IsReal hi)
    (hbk : IsReal bk) :
    di * ((0 + ∑ e ∈ Finset.univ.filter P, a e * d e) + hi * di) + bk
      = (0 + (∑ e ∈ Finset.univ.filter P, a e * (d e * di) + hi * (di * di))) + bk := by
  choose a' ha' using ha
  choose d' hd' using hd
  obtain ⟨di', rfl⟩ := hdi
  obtain ⟨hi', rfl⟩ := hhi
  obtain ⟨bk', rfl⟩ := hbk
  have ea : a = fun e => (a' e : EReal) := funext ha'
  have ed : d = fun e => (d' e : EReal) := funext hd'
  subst ea ed
  simp only [← EReal.coe_mul, ← IsReal.coe_sum, zero_add, ← EReal.coe_add]
  congr 1
  rw [mul_add, Finset.mul_sum]
  congr 1
  · congr 1
    · exact Finset.sum_congr rfl fun e _ => by ring
    · ring

/-- The layer's value is a real number. -/
theorem layer_isReal
    (ha : ∀ e, IsReal (a e)) (hd : ∀ e, IsReal (d e)) (hdi : IsReal di) (hhi : IsReal hi)
    (hbk : IsReal bk) :
    IsReal (di * ((0 + ∑ e ∈ Finset.univ.filter P, a e * d e) + hi * di) + bk) :=
  IsReal.add
    (IsReal.mul hdi
      (IsReal.add
        (IsReal.add IsReal.zero (IsReal.sum _ _ fun e _ => IsReal.mul (ha e) (hd e)))
        (IsReal.mul hhi hdi)))
    hbk

end Layer

end Cert.LayerAlgebra

end
-- ==== Proof.Consts.lean ====
/- The float constants the programs spell, as the extended reals their bit patterns denote.
   One module states them all, so that the others read the constants here and unfold neither
   `Ideal.ofBits` nor `Ideal.ieee` themselves. -/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- The pattern of `+inf` denotes `⊤`. -/
theorem ofBits_inf : Ideal.ofBits .f32 0x7F800000#32 = ⊤ := by
  simp [Ideal.ofBits, Ideal.ieee]

end Cert.Consts

end
-- ==== Proof.SpecMath.lean ====
/-
  The two index-by-index forms of the two-layer graph convolution agree on real inputs.

  The extended edge list is the edges followed by one self-loop per node, so a sum over the extended edges that
  land on node `i` is the sum over the edges that land on `i` plus the single self-loop term of `i`. With that
  split the degrees agree (associativity of addition), hence the normalisation factors agree, and each layer is the
  real-number identity "scale at the source, sum, scale at the target = sum of feature times the product of the two
  scales", which holds because every value involved is a real number.
-/
import proofs.«171371_j15762529976715_2_alg».proof.Proof.Spec
import proofs.«171371_j15762529976715_2_alg».proof.Proof.LayerAlgebra
import proofs.«171371_j15762529976715_2_alg».proof.Proof.Consts
import proofs.«171371_j15762529976715_2_alg».proof.Proof.LibConcatVec

noncomputable section

namespace Cert.Spec

open Idealize.ShloMosaic Cert.LayerAlgebra

/-! ## Index words -/

/-- A word that is not negative, read signed, is left alone by the normalisation of gather indices. -/
theorem nrm_of_nonneg (v : BitVec 32) (h : 0 ≤ v.toInt) : nrm v = v := by
  have hlt : v.slt 0#32 = false := by
    simp only [BitVec.slt, BitVec.toInt_zero, decide_eq_false_iff_not, Int.not_lt]
    exact h
  show (if BitVec.ofBool (v.slt 0#32) = 1 then _ else _) = _
  rw [hlt]
  rfl

/-- A word whose signed value is the node number `i` selects node `i`. -/
theorem src_of_lands (v : BitVec 32) (i : Fin 100000) (h : v.toInt = (i.val : ℤ)) : src v = i := by
  have h0 : 0 ≤ v.toInt := by rw [h]; exact Int.natCast_nonneg _
  apply Fin.ext
  show min (nrm v).toInt.toNat 99999 = i.val
  rw [nrm_of_nonneg v h0, h, Int.toNat_natCast]
  have := i.isLt
  omega

/-- The word of a node number, read signed, is that number. -/
theorem toInt_node (n : Fin 100000) : (BitVec.ofNat 32 n.val).toInt = (n.val : ℤ) :=
  IotaVec.toInt_ofNat_small n.val (by have := n.isLt; omega)

/-- The word of a node number selects that node. -/
theorem src_ofNat (n : Fin 100000) : src (BitVec.ofNat 32 n.val) = n :=
  src_of_lands _ n (toInt_node n)

/-- The word of node `n` lands on node `i` exactly when `n = i`. -/
theorem lands_ofNat (n i : Fin 100000) : (BitVec.ofNat 32 n.val).toInt = (i.val : ℤ) ↔ n = i := by
  rw [toInt_node n]
  constructor
  · intro h
    exact Fin.ext (by exact_mod_cast h)
  · rintro rfl
    rfl

/-! ## The extended index vector on its two ranges -/

theorem catI_edge (v : Fin 3200000 → BitVec 32) (e : Fin 3200000) :
    catI v ⟨e.val, by have := e.isLt; omega⟩ = v e := by
  unfold catI
  rw [dif_pos e.isLt]

theorem catI_loop (v : Fin 3200000 → BitVec 32) (n : Fin 100000) :
    catI v ⟨3200000 + n.val, by have := n.isLt; omega⟩ = BitVec.ofNat 32 n.val := by
  unfold catI
  rw [dif_neg (by simp)]
  show BitVec.ofNat 32 (3200000 + n.val - 3200000) = BitVec.ofNat 32 n.val
  rw [Nat.add_sub_cancel_left]

/-! ## Splitting a sum over the extended edges at the landing filter -/

/-- A sum over the extended edge list is the sum over the edges plus the sum over the self-loops. -/
theorem sum_ext_edges (g : Fin 3300000 → EReal) :
    ∑ e : Fin 3300000, g e
      = ∑ e : Fin 3200000, g ⟨e.val, by have := e.isLt; omega⟩
        + ∑ n : Fin 100000, g ⟨3200000 + n.val, by have := n.isLt; omega⟩ :=
  Fin.sum_univ_add (a := 3200000) (b := 100000) g

/-- Of the extended edges that land on node `i`, the ones past the edge list are exactly the self-loop of `i`. -/
theorem sum_lands_split (col : Fin 3200000 → BitVec 32) (i : Fin 100000) (f : Fin 3300000 → EReal) :
    ∑ e ∈ Finset.univ.filter (fun e : Fin 3300000 => (catI col e).toInt = (i.val : ℤ)), f e
      = ∑ e ∈ Finset.univ.filter (fun e : Fin 3200000 => (col e).toInt = (i.val : ℤ)),
            f ⟨e.val, by have := e.isLt; omega⟩
        + f ⟨3200000 + i.val, by have := i.isLt; omega⟩ := by
  rw [Finset.sum_filter, Finset.sum_filter, sum_ext_edges]
  simp only [catI_edge, catI_loop, lands_ofNat]
  rw [Finset.sum_ite_eq']
  simp only [Finset.mem_univ, if_true]

/-! ## Degrees and normalisation factors agree -/

theorem degR_catI (col : Fin 3200000 → BitVec 32) (i : Fin 100000) : degR (catI col) i = degK col i := by
  unfold degR degK
  rw [sum_lands_split col i (fun _ => oneW)]
  exact (add_assoc _ _ _).symm

theorem disR_catI (col : Fin 3200000 → BitVec 32) : disR (catI col) = disK col := by
  funext i
  unfold disR disK
  rw [degR_catI]

/-! ## Everything is a real number -/

theorem zeroW_eq : zeroW = 0 := Cert.Consts.ofBits_zero
theorem oneW_eq : oneW = 1 := Cert.Consts.ofBits_one

theorem isReal_zeroW : IsReal zeroW := by rw [zeroW_eq]; exact IsReal.zero
theorem isReal_oneW : IsReal oneW := by rw [oneW_eq]; exact IsReal.one

theorem isReal_degK (col : Fin 3200000 → BitVec 32) (i : Fin 100000) : IsReal (degK col i) :=
  IsReal.add (IsReal.add isReal_zeroW (IsReal.sum _ _ fun _ _ => isReal_oneW)) isReal_oneW

/-- The normalisation factor of a real degree is real: either `1/sqrt(max deg 1)` with `max deg 1 ≥ 1`, or zero. -/
theorem isReal_disOf (d : EReal) (hd : IsReal d) : IsReal (disOf d) := by
  unfold disOf Scalar.select
  apply IsReal.ite
  · show IsReal (Ideal.rsqrt (max d oneW))
    rw [oneW_eq]
    exact IsReal.rsqrt_max_one d hd
  · exact isReal_zeroW

theorem isReal_disK (col : Fin 3200000 → BitVec 32) (i : Fin 100000) : IsReal (disK col i) :=
  isReal_disOf _ (isReal_degK col i)

/-! ## One layer -/

section Layer
variable {C : Nat} (row col : Fin 3200000 → BitVec 32) (h : Fin 100000 → Fin C → EReal) (b : Fin C → EReal)

/-- The textbook layer over the extended edges, with the self-loop term split off and the factors of the
    edges-only form. -/
theorem layR_split (i : Fin 100000) (k : Fin C) :
    layR (catI row) (catI col) h b i k
      = (0 + (∑ e ∈ Finset.univ.filter (fun e : Fin 3200000 => (col e).toInt = (i.val : ℤ)),
                h (src (row e)) k * (disK col (src (row e)) * disK col i)
              + h i k * (disK col i * disK col i))) + b k := by
  unfold layR normR
  rw [disR_catI, sum_lands_split col i, zeroW_eq]
  simp only [catI_edge, catI_loop, src_ofNat]
  have hs : ∑ e ∈ Finset.univ.filter (fun e : Fin 3200000 => (col e).toInt = (i.val : ℤ)),
        h (src (row e)) k * (disK col (src (row e)) * disK col (src (col e)))
      = ∑ e ∈ Finset.univ.filter (fun e : Fin 3200000 => (col e).toInt = (i.val : ℤ)),
        h (src (row e)) k * (disK col (src (row e)) * disK col i) :=
    Finset.sum_congr rfl fun e he => by rw [src_of_lands (col e) i (Finset.mem_filter.mp he).2]
  rw [hs]

/-- One layer: scaling the features at their own node before the gather and at the target after the sum is the
    textbook layer over the extended edges. -/
theorem layer_K_eq_R (hh : ∀ n k, IsReal (h n k)) (hb : ∀ k, IsReal (b k)) (i : Fin 100000) (k : Fin C) :
    disK col i * (aggK row col (fun n k => h n k * disK col n) i k + h i k * disK col i) + b k
      = layR (catI row) (catI col) h b i k := by
  rw [layR_split]
  unfold aggK
  rw [zeroW_eq]
  exact layer_eq (fun e : Fin 3200000 => (col e).toInt = (i.val : ℤ)) (fun e => h (src (row e)) k)
    (fun e => disK col (src (row e))) (disK col i) (h i k) (b k)
    (fun e => hh _ _) (fun e => isReal_disK col _) (isReal_disK col i) (hh i k) (hb k)

/-- The layer's value is a real number. -/
theorem isReal_layR (hh : ∀ n k, IsReal (h n k)) (hb : ∀ k, IsReal (b k)) (i : Fin 100000) (k : Fin C) :
    IsReal (layR (catI row) (catI col) h b i k) := by
  rw [← layer_K_eq_R row col h b hh hb i k]
  unfold aggK
  rw [zeroW_eq]
  exact layer_isReal (fun e : Fin 3200000 => (col e).toInt = (i.val : ℤ)) (fun e => h (src (row e)) k)
    (fun e => disK col (src (row e))) (disK col i) (h i k) (b k)
    (fun e => hh _ _) (fun e => isReal_disK col _) (isReal_disK col i) (hh i k) (hb k)

end Layer

/-! ## The two layers -/

section Two
variable (row col : Fin 3200000 → BitVec 32) (x : Fin 100000 → Fin 512 → EReal) (W1 : Fin 512 → Fin 16 → EReal)
  (b1 : Fin 16 → EReal) (W2 : Fin 16 → Fin 64 → EReal) (b2 : Fin 64 → EReal)

theorem isReal_h1R (hx : ∀ i j, IsReal (x i j)) (hW1 : ∀ j k, IsReal (W1 j k)) (n : Fin 100000) (k : Fin 16) :
    IsReal (h1R x W1 n k) :=
  IsReal.sum _ _ fun j _ => IsReal.mul (hx n j) (hW1 j k)

/-- The first layer before its activation. -/
theorem pre1K_eq (hx : ∀ i j, IsReal (x i j)) (hW1 : ∀ j k, IsReal (W1 j k)) (hb1 : ∀ k, IsReal (b1 k))
    (i : Fin 100000) (k : Fin 16) :
    pre1K row col x W1 b1 i k = layR (catI row) (catI col) (h1R x W1) b1 i k :=
  layer_K_eq_R row col (h1R x W1) b1 (isReal_h1R x W1 hx hW1) hb1 i k

/-- The scaled second-layer features are the textbook second-layer features times the node's factor. -/
theorem sh2K_eq (hx : ∀ i j, IsReal (x i j)) (hW1 : ∀ j k, IsReal (W1 j k)) (hb1 : ∀ k, IsReal (b1 k))
    (i : Fin 100000) (c : Fin 64) :
    sh2K row col x W1 b1 W2 i c = h2R (catI row) (catI col) x W1 b1 W2 i c * disK col i := by
  unfold sh2K h2R actR
  simp only [pre1K_eq row col x W1 b1 hx hW1 hb1]

theorem isReal_h2R (hx : ∀ i j, IsReal (x i j)) (hW1 : ∀ j k, IsReal (W1 j k)) (hb1 : ∀ k, IsReal (b1 k))
    (hW2 : ∀ k c, IsReal (W2 k c)) (n : Fin 100000) (c : Fin 64) :
    IsReal (h2R (catI row) (catI col) x W1 b1 W2 n c) :=
  IsReal.sum _ _ fun k _ =>
    IsReal.mul (IsReal.max (isReal_layR row col (h1R x W1) b1 (isReal_h1R x W1 hx hW1) hb1 n k) isReal_zeroW)
      (hW2 k c)

/-- The factored form over the edges equals the textbook form over the edges extended by the self-loops. -/
theorem outK_eq_outR (row col : Fin 3200000 → BitVec 32) (x : Fin 100000 → Fin 512 → EReal)
    (W1 : Fin 512 → Fin 16 → EReal) (b1 : Fin 16 → EReal) (W2 : Fin 16 → Fin 64 → EReal) (b2 : Fin 64 → EReal)
    (hx : ∀ i j, IsReal (x i j)) (hW1 : ∀ j k, IsReal (W1 j k)) (hb1 : ∀ k, IsReal (b1 k))
    (hW2 : ∀ k c, IsReal (W2 k c)) (hb2 : ∀ c, IsReal (b2 c)) (i : Fin 100000) (c : Fin 64) :
    outK row col x W1 b1 W2 b2 i c = outR (catI row) (catI col) x W1 b1 W2 b2 i c := by
  have hsh : sh2K row col x W1 b1 W2
      = fun n c => h2R (catI row) (catI col) x W1 b1 W2 n c * disK col n := by
    funext n c
    exact sh2K_eq row col x W1 b1 W2 hx hW1 hb1 n c
  unfold outK outR
  rw [hsh]
  exact layer_K_eq_R row col (h2R (catI row) (catI col) x W1 b1 W2) b2
    (isReal_h2R row col x W1 b1 W2 hx hW1 hb1 hW2) hb2 i c

end Two

end Cert.Spec

end
-- ==== Proof.FiniteInputs.lean ====
/- From the precondition to "every entry of every float argument is a real number".

   The precondition is a conjunction of five `all(|v| < +inf)`, one per float argument. Each `all`
   is a reduction by `and` into a single word, so its being 1 says every compared element is 1; and
   `|v| < ⊤` for an extended real `v`, where `|v| = max v (-v)`, excludes `v = ⊤` and `v = ⊥`. -/
import Idealize.ShloMosaic.Lib.ReduceAll
import Idealize.ShloMosaic.Lib.ValueIdx
import proofs.«171371_j15762529976715_2_alg».proof.Pre_finite_inputs
import proofs.«171371_j15762529976715_2_alg».proof.Proof.LayerAlgebra
import proofs.«171371_j15762529976715_2_alg».proof.Proof.Consts

noncomputable section

namespace Cert.FiniteInputs

open Idealize.ShloMosaic Cert.LayerAlgebra Cert.Pre_finite_inputs

/-- The shape of rank 0 has exactly one index. -/
instance : Subsingleton S_.Idx := ⟨fun a b => funext fun d => d.elim0⟩

/-- An extended real whose absolute value `max v (-v)` compares below `+inf` is a real number. -/
theorem isReal_of_abs_lt_inf (v : EReal)
    (h : Ideal.cmp .olt (max v (-v)) (Ideal.ofBits .f32 0x7F800000#32) = 1#1) : IsReal v := by
  rw [Cert.Consts.ofBits_inf] at h
  induction v using EReal.rec with
  | bot => exact absurd h (by simp [Ideal.cmp])
  | top => exact absurd h (by simp [Ideal.cmp])
  | coe r => exact IsReal.coe r

/-- One element of the compared array `|x| < broadcast(+inf)` being 1 says that element of `x` is real. -/
theorem isReal_of_cmp {S : Shape} (hb : S_.BroadcastsInDim S (![] : Fin 0 → Fin S.rank))
    (x : FVec Ideal S .f32) (i : S.Idx)
    (h : cmpf .olt (Host.absf x) (broadcastInDim S ![] hb (constant (F := Ideal) S_ .f32 0x7F800000#32)) i = 1#1) :
    IsReal (x i) :=
  isReal_of_abs_lt_inf (x i) h

/-- `all(|x| < +inf)` being 1 says every element of `x` is real. -/
theorem isReal_of_all {S : Shape} {axes : List (Fin S.rank)}
    (hb : S_.BroadcastsInDim S (![] : Fin 0 → Fin S.rank)) (hr : S.ReducesTo axes S_) (hu : 0 < S_.numel)
    (x : FVec Ideal S .f32) (init : IVec S_ 1)
    (h : Host.reduce IntOp.andi
          (cmpf .olt (Host.absf x) (broadcastInDim S ![] hb (constant (F := Ideal) S_ .f32 0x7F800000#32)))
          init hr hu ValueIdx.ix0 = 1#1) :
    ∀ i, IsReal (x i) := fun i =>
  isReal_of_cmp hb x i (Host.reduce_andi_all _ init hr hu ValueIdx.ix0 h i)

/-- The precondition holds only of arguments all of whose float entries are real numbers. -/
theorem all_real [Cert.Pre_finite_inputs.Facts]
    (x : FVec Ideal S100000x512 .f32) (ei : IVec S2x3200000 32) (W1 : FVec Ideal S512x16 .f32)
    (b1 : FVec Ideal S16 .f32) (W2 : FVec Ideal S16x64 .f32) (b2 : FVec Ideal S64 .f32)
    (h : Cert.Pre_finite_inputs.fn (F := Ideal) x ei W1 b1 W2 b2 = fun _ => 1#1) :
    (∀ j, IsReal (x j)) ∧ (∀ j, IsReal (W1 j)) ∧ (∀ j, IsReal (b1 j)) ∧ (∀ j, IsReal (W2 j)) ∧
      (∀ j, IsReal (b2 j)) := by
  have h0 := congrFun h ValueIdx.ix0
  dsimp only [Cert.Pre_finite_inputs.fn, Cert.Pre_finite_inputs.fn_part1] at h0
  obtain ⟨h4, hb2⟩ := IntOp.andi_eq_one.1 h0
  obtain ⟨h3, hW2⟩ := IntOp.andi_eq_one.1 h4
  obtain ⟨h2, hb1⟩ := IntOp.andi_eq_one.1 h3
  obtain ⟨hx, hW1⟩ := IntOp.andi_eq_one.1 h2
  exact ⟨isReal_of_all _ _ _ x _ hx, isReal_of_all _ _ _ W1 _ hW1, isReal_of_all _ _ _ b1 _ hb1,
    isReal_of_all _ _ _ W2 _ hW2, isReal_of_all _ _ _ b2 _ hb2⟩

end Cert.FiniteInputs

end
-- ==== Proof.MainEq.lean ====
/-
  The two results are one array: the kernel's composed term and the reference's last stage, of the same real-valued
  arguments, agree at every index — the factored form of the two-layer graph convolution against the textbook form over
  the edge list extended by the self-loops (`Spec.outK_eq_outR`).
-/
import proofs.«171371_j15762529976715_2_alg».proof.Proof.KFinal
import proofs.«171371_j15762529976715_2_alg».proof.Proof.RIndex
import proofs.«171371_j15762529976715_2_alg».proof.Proof.SpecMath
import proofs.«171371_j15762529976715_2_alg».proof.Proof.FiniteInputs

set_option maxRecDepth 16384

noncomputable section

namespace Cert.Bridge

open Idealize.ShloMosaic Idealize.ShloMosaic.ValueIdx Cert.Adapt Cert.LayerAlgebra

/-- On arguments all of whose float entries are real numbers, the kernel's result term is the reference's last stage. -/
theorem result_eq (x : (⟨Cert.KernelIdeal.S100000x512, .f32⟩ : BufTy).Contents (Elt Ideal)) (ei : (⟨Cert.KernelIdeal.S2x3200000, .i32⟩ : BufTy).Contents (Elt Ideal))
    (W1 : (⟨Cert.KernelIdeal.S512x16, .f32⟩ : BufTy).Contents (Elt Ideal)) (b1 : (⟨Cert.KernelIdeal.S16, .f32⟩ : BufTy).Contents (Elt Ideal))
    (W2 : (⟨Cert.KernelIdeal.S16x64, .f32⟩ : BufTy).Contents (Elt Ideal)) (b2 : (⟨Cert.KernelIdeal.S64, .f32⟩ : BufTy).Contents (Elt Ideal))
    (hx : ∀ j, IsReal (x j)) (hW1 : ∀ j, IsReal (W1 j)) (hb1 : ∀ j, IsReal (b1 j)) (hW2 : ∀ j, IsReal (W2 j)) (hb2 : ∀ j, IsReal (b2 j)) :
    Cert.ReferenceIdeal.ReadP.val_main_v66 (F := Ideal) x ei W1 b1 W2 b2 = Cert.KernelIdeal.KernelValue.outT x ei W1 b1 W2 b2 := by
  funext j
  obtain ⟨p, q, rfl⟩ : ∃ (p : Fin 100000) (q : Fin 64), j = ix2 p q := ⟨j 0, j 1, eq_ix2 j⟩
  rw [Cert.ReferenceIdeal.RefIndex.ref_value_apply, Cert.KernelIdeal.KernelIndex.outT_apply]
  exact (Cert.Spec.outK_eq_outR (rowOf ei) (colOf ei) (cur2 (n0 := 100000) (n1 := 512) x) (cur2 (n0 := 512) (n1 := 16) W1)
    (cur1 (n := 16) b1) (cur2 (n0 := 16) (n1 := 64) W2) (cur1 (n := 64) b2)
    (fun i j => hx _) (fun j k => hW1 _) (fun k => hb1 _) (fun k c => hW2 _) (fun c => hb2 _) _ _).symm

end Cert.Bridge

end
-- ==== Proof.lean ====
/-
  A two-layer graph convolution with symmetric normalisation, as a Pallas kernel against its jnp reference, at the ideal
  instance (floats are extended reals, every operation exact).

  THE REFERENCE appends one self-loop per node to the edge list, counts degrees over the extended list, forms the edge
  weights `dis[src] * dis[dst]` with `dis = 1/sqrt(deg)`, and for each layer gathers the transformed features of every
  edge's source, scales them by the edge's weight, sums them at the edge's target and adds the bias (a `relu` between the
  two layers).
  THE KERNEL never extends the edge list. Its degree is the count over the edges plus one; its first region multiplies
  `x W1` by `dis` of the row's own node; the host sums these scaled rows over the incoming edges; its second region adds
  the node's own scaled row (the self-loop), multiplies by `dis` of the target, adds the bias, applies `relu`, multiplies by
  `W2` and scales by `dis` again; the host aggregates once more and the third region finishes the second layer the same way.
  The two agree because `dis[i] * (sum_e h[src e] * dis[src e] + h[i] * dis[i]) = sum_e h[src e] * (dis[src e] * dis[i]) + h[i] *
  (dis[i] * dis[i])`: distributivity, which on the extended reals needs every quantity finite. The precondition gives real
  inputs; degrees are finite counts, `1/sqrt(max deg 1)` is real, and sums, products and maxima of reals are real.

  The frames of the two kernels are the generated ones; the reference's frame is its run with the result dropped; the
  ideal pass rewrote nothing, so `preserves` is trivial.
-/
import proofs.«171371_j15762529976715_2_alg».proof.Defs
import proofs.«171371_j15762529976715_2_alg».proof.Proof.Gen.Kernel
import proofs.«171371_j15762529976715_2_alg».proof.Proof.Gen.Kernel.Skeleton
import proofs.«171371_j15762529976715_2_alg».proof.Proof.Gen.Kernel.Launch
import proofs.«171371_j15762529976715_2_alg».proof.Proof.Gen.Kernel.Points
import proofs.«171371_j15762529976715_2_alg».proof.Proof.Gen.Kernel.Frame
import proofs.«171371_j15762529976715_2_alg».proof.Proof.Gen.KernelIdeal
import proofs.«171371_j15762529976715_2_alg».proof.Proof.Gen.KernelIdeal.Skeleton
import proofs.«171371_j15762529976715_2_alg».proof.Proof.Gen.KernelIdeal.Launch
import proofs.«171371_j15762529976715_2_alg».proof.Proof.Gen.KernelIdeal.Points
import proofs.«171371_j15762529976715_2_alg».proof.Proof.Gen.KernelIdeal.Frame
import proofs.«171371_j15762529976715_2_alg».proof.Proof.Gen.ReferenceIdeal
import proofs.«171371_j15762529976715_2_alg».proof.Proof.Gen.Pre_finite_inputs
import proofs.«171371_j15762529976715_2_alg».proof.Proof.KFrameP
import proofs.«171371_j15762529976715_2_alg».proof.Proof.KValue
import proofs.«171371_j15762529976715_2_alg».proof.Proof.RefRunP
import proofs.«171371_j15762529976715_2_alg».proof.Proof.MainEq
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
/-- The reference has no kernel: its frame is its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the kernel's composed term of the (agreeing, real-valued) arguments in their result arrays. -/
theorem algebraic : Cert.algebraic_KernelIdeal_ReferenceIdeal := by
  intro m ρ m' ρ' hpre hagree
  refine ⟨fun c => Cert.KernelIdeal.KernelValue.outT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.W8_v41 m ρ c), (h c).2⟩) (Cert.KernelIdeal.GenP.frame_res m ρ)
  · refine (θ_run Cert.ReferenceIdeal.defs _ _).mono (fun r h c => ⟨(h c).1.trans ?_, (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2]
    obtain ⟨hx, hW1, hb1, hW2, hb2⟩ := Cert.FiniteInputs.all_real _ _ _ _ _ _ (hpre c)
    exact Cert.Bridge.result_eq _ _ _ _ _ _ hx hW1 hb1 hW2 hb2

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
